-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S64x32 .f32) (main_arg7 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S64x64 : Shape := ⟨2, ![64, 64]⟩
abbrev S1x64 : Shape := ⟨2, ![1, 64]⟩
abbrev S50000x32 : Shape := ⟨2, ![50000, 32]⟩
abbrev S5000x32 : Shape := ⟨2, ![5000, 32]⟩
abbrev S1x32 : Shape := ⟨2, ![1, 32]⟩

abbrev nBuf : Space → Nat
  | .hbm => 85
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S64x64, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S50000x32, .f32⟩
  | .hbm, ⟨84, _⟩ => ⟨S50000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S32, .f32⟩
  | .local _ .vmem, ⟨14, _⟩ => ⟨S32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59_0 : Ref sig .tc := ⟨.hbm, 83, rfl⟩
abbrev main_v59_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  concatenates_S64x32_S64x32_S64x64_d1 : Shape.Concatenates [S64x32, S64x32] S64x64 1
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32_S32_0 : ∀ a, (![0] : Fin 1 → Nat) a + S32.size a ≤ S32.size a
  h_S32 : 0 < S32.numel
  slices_S5000x64_o0_0_S5000x32 : S5000x64.Slices ![0, 0] S5000x32
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  slices_S5000x64_o0_32_S5000x32 : S5000x64.Slices ![0, 32] S5000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S50000x32.size a
  hwx2_4 : ∀ i : grid2.Coords, EltTy.bits .f32 = 32 ∨ (Rect.block (s := S50000x32) S5000x32.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59_0) S5000x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v59_1) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x64, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .f32⟩
  | .hbm, ⟨71, _⟩ => ⟨S50000x32, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x32, .f32⟩
  | .hbm, ⟨81, _⟩ => ⟨S850000x1, .f32⟩
  | .hbm, ⟨82, _⟩ => ⟨S850000x32, .f32⟩
  | .hbm, ⟨83, _⟩ => ⟨S850000x32, .f32⟩
  | .hbm, ⟨84, _⟩ => ⟨S_, .f32⟩
  | .hbm, ⟨85, _⟩ => ⟨S50000x32, .f32⟩
  | .hbm, ⟨86, _⟩ => ⟨S850000x1, .i32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | .hbm, ⟨91, _⟩ => ⟨S50000x32, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x32, .f32⟩
  | .hbm, ⟨101, _⟩ => ⟨S850000x1, .f32⟩
  | .hbm, ⟨102, _⟩ => ⟨S850000x32, .f32⟩
  | .hbm, ⟨103, _⟩ => ⟨S850000x32, .f32⟩
  | .hbm, ⟨104, _⟩ => ⟨S_, .f32⟩
  | .hbm, ⟨105, _⟩ => ⟨S50000x32, .f32⟩
  | .hbm, ⟨106, _⟩ => ⟨S850000x1, .i32⟩
  | .hbm, ⟨107, _⟩ => ⟨S50000x32, .f32⟩
  | .hbm, ⟨108, _⟩ => ⟨S1x32, .f32⟩
  | .hbm, ⟨109, _⟩ => ⟨S50000x32, .f32⟩
  | .hbm, ⟨110, _⟩ => ⟨S50000x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelRun.lean ====
/-
  The idealized kernel's whole run with its two result arrays named: every weakly fair execution of the program
  terminates, and in the final state each result buffer holds what the last boundary of the fold through the program
  holds there (the third region's write-backs), the arguments as launched.  The launch is the one of the frame: the
  same segments, the same thread states, the final state read buffer by buffer; only the postcondition keeps the two
  result buffers as well.
-/
import proofs.«163162_j3032246911086_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results kept: both result buffers end at the last boundary's contents, the arguments unchanged. -/
theorem run_results : θ_run defs (onTc (τ := τ) (main (F := F))) ⟨m, fun _ => 0, ρ⟩ (fun r => ∀ c : Dev nD,
      r.2.mem ((c.tc : Thread nD τ).loc main_v59_0) = W8 m ρ c (Proc.devRef .tc main_v59_0)
      ∧ r.2.mem ((c.tc : Thread nD τ).loc main_v59_1) = W8 m ρ c (Proc.devRef .tc main_v59_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59_0 (by decide)),
       h c _ (mem_uc main_v59_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Hand

end
-- ==== Proof.KernelFold.lean ====
/-
  The buffers the idealized kernel program's three regions read, as values.  The program is a fold of host
  operations and regions over the launch memory; at each region's entry this module reads the buffers the region's
  windows stage:
  * before the first product: the node features and the first weight are the arguments; the edge lists with the
    self loops (`main_v3` the sources, `main_v6` the destinations) and the edge weights d(src)^(-1/2) · d(dst)^(-1/2)
    (`main_v29`) are the same functions of the edge argument as in the reference program;
  * between the regions: one neighbour aggregation `aggK` (gather the source rows, scale by the edge weight,
    scatter-add onto the destination rows) of the previous region's result, and the two head weights joined by columns;
  * buffers that no operation in between writes keep their contents.
-/
import proofs.«163162_j3032246911086_1_alg».proof.Proof.Gen.KernelIdeal.Frame
import proofs.«163162_j3032246911086_1_alg».proof.Proof.RefRead
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- One neighbour aggregation over 64 columns: gather the rows of `h` at the (wrapped) sources `v3`, scale row e by
    the edge weight `v29[e]`, and add each row onto the destination row `v6[e]` of a zero array. -/
def aggK (v3 v6 : (⟨S850000, .i32⟩ : BufTy).Contents (Elt Ideal)) (v29 : (⟨S850000, .f32⟩ : BufTy).Contents (Elt Ideal))
    (h : (⟨S50000x64, .f32⟩ : BufTy).Contents (Elt Ideal)) : (⟨S50000x64, .f32⟩ : BufTy).Contents (Elt Ideal) :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 v6)
    (mulf (Host.gather gather_S50000x64_S850000x1_S850000x64_1_0_n_n_0_1_164 h
        (broadcastInDim S850000x1 ![0] bcast_S850000_S850000x1_0
          (select (cmpi .slt v3 (broadcastInDim S850000 ![] bcast_S_S850000 (constantI S_ 32 0#32)))
            (addi v3 (broadcastInDim S850000 ![] bcast_S_S850000 (constantI S_ 32 50000#32))) v3)))
      (broadcastInDim S850000x64 ![0, 1] bcast_S850000x1_S850000x64_0_1
        (broadcastInDim S850000x1 ![0] bcast_S850000_S850000x1_0 v29)))

/-! ## At the first region's entry -/

/-- An argument buffer is as launched at the first region's entry. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp <;> rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp <;> rfl

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp <;> rfl

theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0, hostOps0_1, hostOps0_2]
  after_results_simp <;> rfl

theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0, hostOps0_1, hostOps0_2]
  after_results_simp <;> rfl

/-- The sources with the self loops appended: the reference's function of the edge argument. -/
theorem W3_v3 (c : Dev nD) : W3 m ρ c (Proc.devRef .tc main_v3)
    = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp <;> rfl

/-- The destinations with the self loops appended: the reference's function of the edge argument. -/
theorem W3_v6 (c : Dev nD) : W3 m ρ c (Proc.devRef .tc main_v6)
    = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

/-! The edge weights are read in two steps: first what the opening operations leave (the edge lists, the degrees'
    comparison and inverse square root), then the remaining operations over those. -/

theorem W1_v3 (c : Dev nD) : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  dsimp only [hostOps0]
  after_results_simp <;> rfl

theorem W1_v6 (c : Dev nD) : W1 m ρ c (Proc.devRef .tc main_v6)
    = Cert.ReferenceIdeal.ReadP.val_main_v6 (F := Ideal) (m ((c : Thread nD τ).loc main_arg1)) := by
  show StableHlo.after hostOps0 (W0 m ρ c) (Proc.devRef .tc main_v6) = _
  dsimp only [hostOps0]
  after_results_simp <;> rfl

theorem W1_v12 (c : Dev nD) : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  dsimp only [hostOps0]
  after_results_simp <;> rfl

theorem W1_v13 (c : Dev nD) : W1 m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  dsimp only [hostOps0]
  after_results_simp <;> rfl

theorem W1_cst_2 (c : Dev nD) : W1 m ρ c (Proc.devRef .tc main_cst_2)
    = Cert.ReferenceIdeal.ReadP.val_main_cst_2 (F := Ideal) := by
  show StableHlo.after hostOps0 (W0 m ρ c) (Proc.devRef .tc main_cst_2) = _
  dsimp only [hostOps0]
  after_results_simp <;> rfl

/-! The callee's typed references carry their buffers' types: reading or writing a value through one is the identity. -/

theorem toBuf_v14 (y : (⟨S50000, .f32⟩ : BufTy).Contents (Elt Ideal)) :
    (TRef.of (sig := sig) (T := ⟨S50000, .f32⟩) main_v14).toBuf (Val := Elt Ideal) y = y := rfl
theorem ofBuf_v12 (y : (⟨S50000, .i1⟩ : BufTy).Contents (Elt Ideal)) :
    (TRef.of (sig := sig) (T := ⟨S50000, .i1⟩) main_v12).ofBuf (Val := Elt Ideal) y = y := rfl
theorem ofBuf_v13 (y : (⟨S50000, .f32⟩ : BufTy).Contents (Elt Ideal)) :
    (TRef.of (sig := sig) (T := ⟨S50000, .f32⟩) main_v13).ofBuf (Val := Elt Ideal) y = y := rfl
theorem ofBuf_call0_v1 (y : (⟨S50000, .f32⟩ : BufTy).Contents (Elt Ideal)) :
    (TRef.of (sig := sig) (T := ⟨S50000, .f32⟩) main_call0_v1).ofBuf (Val := Elt Ideal) y = y := rfl
theorem toBuf_call0_v1 (y : (⟨S50000, .f32⟩ : BufTy).Contents (Elt Ideal)) :
    (TRef.of (sig := sig) (T := ⟨S50000, .f32⟩) main_call0_v1).toBuf (Val := Elt Ideal) y = y := rfl
theorem ofBuf_call0_v0 (y : (⟨S_, .f32⟩ : BufTy).Contents (Elt Ideal)) :
    (TRef.of (sig := sig) (T := ⟨S_, .f32⟩) main_call0_v0).ofBuf (Val := Elt Ideal) y = y := rfl
theorem toBuf_call0_v0 (y : (⟨S_, .f32⟩ : BufTy).Contents (Elt Ideal)) :
    (TRef.of (sig := sig) (T := ⟨S_, .f32⟩) main_call0_v0).toBuf (Val := Elt Ideal) y = y := rfl
theorem ofBuf_cst_2 (y : (⟨S_, .f32⟩ : BufTy).Contents (Elt Ideal)) :
    (TRef.of (sig := sig) (T := ⟨S_, .f32⟩) main_cst_2).ofBuf (Val := Elt Ideal) y = y := rfl

/-- The edge weights: the reference's function of the edge argument. -/
theorem W3_v29 (c : Dev nD) : W3 m ρ c (Proc.devRef .tc main_v29)
    = Cert.ReferenceIdeal.ReadP.val_main_v29 (F := Ideal) (m ((c : Thread nD τ).loc main_arg1)) := by
  show StableHlo.after hostOps0_2 (StableHlo.after hostOps0_1 (W1 m ρ c)) (Proc.devRef .tc main_v29) = _
  have e3 := W1_v3 m ρ c
  have e6 := W1_v6 m ρ c
  have e12 := W1_v12 m ρ c
  have e13 := W1_v13 m ρ c
  have ec := W1_cst_2 m ρ c
  generalize W1 m ρ c = V1 at e3 e6 e12 e13 ec ⊢
  dsimp only [hostOps0_1, hostOps0_2]
  after_results_simp
  rw [e3, e6, e12, e13, ec]
  rw [toBuf_v14, ofBuf_v12, ofBuf_v13, ofBuf_call0_v1, toBuf_call0_v1, ofBuf_call0_v0, toBuf_call0_v0, ofBuf_cst_2]
  rfl

/-! ## Between the first and the second region -/

/-- A buffer that is no array of the first region and that the operations up to the second region do not write. -/
theorem W5_keep (c : Dev nD) (b : Ref sig .tc) (h0 : ∀ w, Pipeline.arrRef spec0 w ≠ b)
    (h1 : ∀ op ∈ (hostOps1 : List (HloOp τ sig (Elt Ideal))), Proc.devRef .tc b ∉ op.writes) :
    W5 m ρ c (Proc.devRef .tc b) = W3 m ρ c (Proc.devRef .tc b) :=
  (StableHlo.after_of_forall_not_mem (b := Proc.devRef .tc b) _ _ h1).trans (W4_of_ne m ρ c b h0)

/-- The second region's first input: the aggregation of the first region's result. -/
theorem W5_v43 (c : Dev nD) : W5 m ρ c (Proc.devRef .tc main_v43)
    = aggK (W4 m ρ c (Proc.devRef .tc main_v3)) (W4 m ρ c (Proc.devRef .tc main_v6)) (W4 m ρ c (Proc.devRef .tc main_v29))
        (W4 m ρ c (Proc.devRef .tc main_v30)) := by
  show StableHlo.after hostOps1 (W4 m ρ c) (Proc.devRef .tc main_v43) = _
  dsimp only [hostOps1]
  after_results_simp <;> rfl

/-- The second region's weight: the two head weights joined by columns. -/
theorem W5_v44 (c : Dev nD) : W5 m ρ c (Proc.devRef .tc main_v44)
    = concatenate S64x64 1 [⟨S64x32, W4 m ρ c (Proc.devRef .tc main_arg4)⟩, ⟨S64x32, W4 m ρ c (Proc.devRef .tc main_arg6)⟩]
        concatenates_S64x32_S64x32_S64x64_d1 := by
  show StableHlo.after hostOps1 (W4 m ρ c) (Proc.devRef .tc main_v44) = _
  dsimp only [hostOps1]
  after_results_simp <;> rfl

theorem W5_arg3 (c : Dev nD) : W5 m ρ c (Proc.devRef .tc main_arg3) = W4 m ρ c (Proc.devRef .tc main_arg3) := by
  show StableHlo.after hostOps1 (W4 m ρ c) (Proc.devRef .tc main_arg3) = _
  dsimp only [hostOps1]
  after_results_simp <;> rfl

theorem W5_v3 (c : Dev nD) : W5 m ρ c (Proc.devRef .tc main_v3) = W4 m ρ c (Proc.devRef .tc main_v3) := by
  show StableHlo.after hostOps1 (W4 m ρ c) (Proc.devRef .tc main_v3) = _
  dsimp only [hostOps1]
  after_results_simp <;> rfl

theorem W5_v6 (c : Dev nD) : W5 m ρ c (Proc.devRef .tc main_v6) = W4 m ρ c (Proc.devRef .tc main_v6) := by
  show StableHlo.after hostOps1 (W4 m ρ c) (Proc.devRef .tc main_v6) = _
  dsimp only [hostOps1]
  after_results_simp <;> rfl

theorem W5_v29 (c : Dev nD) : W5 m ρ c (Proc.devRef .tc main_v29) = W4 m ρ c (Proc.devRef .tc main_v29) := by
  show StableHlo.after hostOps1 (W4 m ρ c) (Proc.devRef .tc main_v29) = _
  dsimp only [hostOps1]
  after_results_simp <;> rfl

theorem W5_arg5 (c : Dev nD) : W5 m ρ c (Proc.devRef .tc main_arg5) = W4 m ρ c (Proc.devRef .tc main_arg5) := by
  show StableHlo.after hostOps1 (W4 m ρ c) (Proc.devRef .tc main_arg5) = _
  dsimp only [hostOps1]
  after_results_simp <;> rfl

theorem W5_arg7 (c : Dev nD) : W5 m ρ c (Proc.devRef .tc main_arg7) = W4 m ρ c (Proc.devRef .tc main_arg7) := by
  show StableHlo.after hostOps1 (W4 m ρ c) (Proc.devRef .tc main_arg7) = _
  dsimp only [hostOps1]
  after_results_simp <;> rfl

/-! ## Between the second and the third region -/

/-- The third region's first input: the aggregation of the second region's result. -/
theorem W7_v58 (c : Dev nD) : W7 m ρ c (Proc.devRef .tc main_v58)
    = aggK (W6 m ρ c (Proc.devRef .tc main_v3)) (W6 m ρ c (Proc.devRef .tc main_v6)) (W6 m ρ c (Proc.devRef .tc main_v29))
        (W6 m ρ c (Proc.devRef .tc main_v45)) := by
  show StableHlo.after hostOps2 (W6 m ρ c) (Proc.devRef .tc main_v58) = _
  dsimp only [hostOps2]
  after_results_simp <;> rfl

theorem W7_arg5 (c : Dev nD) : W7 m ρ c (Proc.devRef .tc main_arg5) = W6 m ρ c (Proc.devRef .tc main_arg5) := by
  show StableHlo.after hostOps2 (W6 m ρ c) (Proc.devRef .tc main_arg5) = _
  dsimp only [hostOps2]
  after_results_simp <;> rfl

theorem W7_arg7 (c : Dev nD) : W7 m ρ c (Proc.devRef .tc main_arg7) = W6 m ρ c (Proc.devRef .tc main_arg7) := by
  show StableHlo.after hostOps2 (W6 m ρ c) (Proc.devRef .tc main_arg7) = _
  dsimp only [hostOps2]
  after_results_simp <;> rfl

end Cert.KernelIdeal.Fold

end
-- ==== Proof.Spec.lean ====
/-
  The mathematics of a two-layer graph convolution read as whole-array functions on the extended reals.
  Shapes: 50000 nodes, 128 input features, 64 hidden features, two heads of 32 features.
  * `mm x w`           : the product of the node features with the first weight, entry (n, j) = Σ_k x[n,k] · w[k,j].
  * `reluProj a b w`   : entry (n, j) = Σ_k max (a[n,k] + b[k]) 0 · w[k,j] — bias, rectifier, then the product with
                          the joined weight of the two heads.
  * `biasLeft a b`     : entry (n, q) = a[n, q] + b[q]       (the first head: columns 0 … 31 of a 64-column array);
  * `biasRight a b`    : entry (n, q) = a[n, 32 + q] + b[q]  (the second head: columns 32 … 63).
-/
import Idealize.ShloMosaic.PureOps.Ideal
import Idealize.ShloMosaic.Lib.ValueIdx

noncomputable section

namespace Cert.Gcn

open Idealize.ShloMosaic Idealize.ShloMosaic.ValueIdx

/-- The row coordinate of a rank-2 index, typed by the literal extent. -/
abbrev row {r c : Nat} (i : (⟨2, ![r, c]⟩ : Shape).Idx) : Fin r := ⟨(i 0).val, idx2_lt0 i⟩
/-- The column coordinate of a rank-2 index, typed by the literal extent. -/
abbrev col {r c : Nat} (i : (⟨2, ![r, c]⟩ : Shape).Idx) : Fin c := ⟨(i 1).val, idx2_lt1 i⟩

/-- Entry (n, j) of the product of node features and the first weight: Σ_k x[n,k] · w[k,j]. -/
def mm (x : (⟨2, ![50000, 128]⟩ : Shape).Idx → EReal) (w : (⟨2, ![128, 64]⟩ : Shape).Idx → EReal) :
    (⟨2, ![50000, 64]⟩ : Shape).Idx → EReal :=
  fun i => ∑ k : Fin 128, x (ix2 (row i) k) * w (ix2 k (col i))

/-- Entry (n, j) of bias, rectifier and product with a 64 × 64 weight: Σ_k max (a[n,k] + b[k]) 0 · w[k,j]. -/
def reluProj (a : (⟨2, ![50000, 64]⟩ : Shape).Idx → EReal) (b : (⟨1, ![64]⟩ : Shape).Idx → EReal)
    (w : (⟨2, ![64, 64]⟩ : Shape).Idx → EReal) : (⟨2, ![50000, 64]⟩ : Shape).Idx → EReal :=
  fun i => ∑ k : Fin 64, max (a (ix2 (row i) k) + b (ix1 k)) 0 * w (ix2 k (col i))

/-- Column q of the left half plus the bias: a[n, q] + b[q]. -/
def biasLeft (a : (⟨2, ![50000, 64]⟩ : Shape).Idx → EReal) (b : (⟨1, ![32]⟩ : Shape).Idx → EReal) :
    (⟨2, ![50000, 32]⟩ : Shape).Idx → EReal :=
  fun i => a (ix2 (row i) ⟨(i 1).val, by have := idx2_lt1 i; omega⟩) + b (ix1 (col i))

/-- Column q of the right half plus the bias: a[n, 32 + q] + b[q]. -/
def biasRight (a : (⟨2, ![50000, 64]⟩ : Shape).Idx → EReal) (b : (⟨1, ![32]⟩ : Shape).Idx → EReal) :
    (⟨2, ![50000, 32]⟩ : Shape).Idx → EReal :=
  fun i => a (ix2 (row i) ⟨(i 1).val + 32, by have := idx2_lt1 i; omega⟩) + b (ix1 (col i))

end Cert.Gcn

end
-- ==== Proof.KernelBlocks.lean ====
/-
  What each region of the two-layer graph convolution leaves in its output arrays, as ONE whole-array function of the
  region's input arrays as the region finds them: the rows of an output are computed in ten blocks of 5000 rows, block t
  from rows 5000 t … 5000 t + 4999 of the row-blocked input and from the whole weight / bias arrays, and every entry of a
  block is the specification's entry at the array index under it. The ten blocks tile the array: row r lies in block r / 5000.
-/
import proofs.«163162_j3032246911086_1_alg».proof.Proof.Gen.KernelIdeal.Frame
import proofs.«163162_j3032246911086_1_alg».proof.Proof.Spec
import Idealize.ShloMosaic.Lib.Pipeline.Value
import Idealize.ShloMosaic.PureOps.Ideal.Laws
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (V : (c : Dev nD) → (b : Ref sig .tc) → Buf (Elt Ideal) ((c : Thread nD τ).loc b))

/-- The zero offsets of a whole-buffer access of a matrix, as the constant function. -/
theorem zero_offsets2 : (![0, 0] : Fin 2 → Nat) = fun _ => 0 := funext fun a => by fin_cases a <;> rfl
/-- The zero offset of a whole-buffer access of a vector, as the constant function. -/
theorem zero_offsets1 : (![0] : Fin 1 → Nat) = fun _ => 0 := funext fun a => by fin_cases a <;> rfl

/-! ## The first region: node features times the first weight -/

/-- The left operand's index of the first region's product: row of the output index, -/
theorem mm_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and the contraction coordinate as its column. -/
theorem mm_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index: the contraction coordinate as its row, -/
theorem mm_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and the column of the output index. -/
theorem mm_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of the first region's payload: Σ_k x0[p, k] · x1[k, q] (rounding to the narrow format is the identity
    on the extended reals, and the accumulator starts at zero). -/
theorem mm_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  show FloatOps.matmul dot_S5000x128_S128x64_S5000x64_1_0_0_1_n_n none (truncf .bf16 x0 bitsLt_bf16_f32) (truncf .bf16 x1 bitsLt_bf16_f32)
      (constant (F := Ideal) S5000x64 .f32 0x00000000#32) (ix2 p q) = _
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mm_lhs_row _ _
    | ⟨1, _⟩ => exact (mm_lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (mm_rhs_row _ _).trans hk
    | ⟨1, _⟩ => exact mm_rhs_col _ _)
  rw [el, er]
  rfl

/-- The printed index maps of the first region, decided over its ten grid points. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row-block input of the first region at point t holds rows 5000 t … 5000 t + 4999 of the node features. -/
theorem rows0_0 (c : Dev nD) (t : Fin cfg0.N) (p : Fin 5000) (k : Fin 128) (n : Fin 50000) (hn : n.val = t.val * 5000 + p.val) :
    (iblk0 V c 0 t : Vec Ideal S5000x128 .f32) (ix2 p k) = (V c main_arg0 : S50000x128.Idx → EReal) (ix2 n k) := by
  obtain ⟨e0, e1, -⟩ := index_facts0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The weight input of the first region at any point holds its whole array. -/
theorem whole0_1 (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -⟩ := index_facts0 t
  unfold iblk0
  rw [View.read_apply]
  show V c main_arg2 _ = V c main_arg2 _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- A block of the product: when the loaded block is rows 5000 T … of `X` and the loaded weight is `W`, the payload at a
    block index is the product of `X` and `W` at the array index under it. -/
theorem mm_block (X : S50000x128.Idx → EReal) (W : S128x64.Idx → EReal) (x0 : Vec Ideal S5000x128 .f32) (x1 : Vec Ideal S128x64 .f32)
    (T : Nat) (h0 : ∀ (p : Fin 5000) (k : Fin 128) (n : Fin 50000), n.val = T * 5000 + p.val → x0 (ix2 p k) = X (ix2 n k))
    (h1 : ∀ (k : Fin 128) (q : Fin 64), x1 (ix2 k q) = W (ix2 k q)) (y : S5000x64.Idx) (i : S50000x64.Idx)
    (hi0 : (i 0).val = T * 5000 + (y 0).val) (hi1 : (i 1).val = (y 1).val) :
    k0_pay1 x0 x1 y = Cert.Gcn.mm X W i := by
  obtain ⟨p, q, rfl⟩ : ∃ (p : Fin 5000) (q : Fin 64), y = ix2 p q := ⟨y 0, y 1, eq_ix2 y⟩
  rw [mm_apply]
  unfold Cert.Gcn.mm
  have hi0' : (i 0).val = T * 5000 + p.val := hi0
  have hi1' : (i 1).val = q.val := hi1
  refine Finset.sum_congr rfl fun k _ => ?_
  rw [h0 p k (Cert.Gcn.row i) hi0', h1 k q]
  refine congrArg (X (ix2 (Cert.Gcn.row i) k) * ·) (congrArg W ?_)
  exact funext fun a => Fin.ext (by match a with | ⟨0, _⟩ => rfl | ⟨1, _⟩ => exact hi1'.symm)

/-- What point t of the first region writes back is block t of the product of the region's input arrays. -/
theorem flushed0_2_eq (c : Dev nD) (t : Fin cfg0.N) :
    (dat0 (F := Ideal) V c).flushed 2 t
      = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero zero_offsets2]
  simp only [View.ld_unit_zero (S := S5000x128) zero_offsets2, View.ld_unit_zero (S := S128x64) zero_offsets2]
  obtain ⟨-, -, -, -, e4, e5⟩ := index_facts0 t
  funext j
  show k0_pay1 (iblk0 V c 0 t) (iblk0 V c 1 t) ((cfg0.win 2).xinj (grid0.coords t) j)
      = Cert.Gcn.mm (V c main_arg0) (V c main_arg2) (((cfg0.win 2).blk t).view.emb j)
  refine mm_block (V c main_arg0) (V c main_arg2) (iblk0 V c 0 t) (iblk0 V c 1 t) t.val (rows0_0 V c t) (whole0_1 V c t) _ _ ?_ ?_
  · show win0_2.index t (0 : Fin 2) * 5000 + 1 * (j 0).val = t.val * 5000 + (j 0).val; omega
  · show win0_2.index t (1 : Fin 2) * 64 + 1 * (j 1).val = (j 1).val; omega

/-- An index of the product's array is in point t's block iff each coordinate is in the block's range on its axis. -/
theorem mem_blk0_2 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the product's array is in some point's block: row r is in the block of point r / 5000. -/
theorem cover0_2_all (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, e4, e5⟩ := index_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The first region's output array after the region: the node features times the first weight. -/
theorem final0 (c : Dev nD) :
    (dat0 (F := Ideal) V c).arrAt 2 cfg0.N = Cert.Gcn.mm (V c main_arg0) (V c main_arg2) :=
  (dat0 (F := Ideal) V c).arrAt_eq_of_cover 2 (Cert.Gcn.mm (V c main_arg0) (V c main_arg2))
    (fun t _ => flushed0_2_eq V c t) cover0_2_all

/-! ## The second region: bias, rectifier, then the product with the joined weight of the two heads -/

/-- The left operand's index of the second region's product: row of the output index, -/
theorem rp_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and the contraction coordinate as its column. -/
theorem rp_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction coordinate as its row, -/
theorem rp_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and the column of the output index. -/
theorem rp_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, k) of the rectified biased block: max (x0[p, k] + x1[k]) 0 (the bias row is broadcast over the rows; the
    zero word is the real zero). -/
theorem rect_apply (x0 : Vec Ideal S5000x64 .f32) (x1 : Vec Ideal S64 .f32) (p : Fin 5000) (k : Fin 64) :
    maximumf (addf (shapeCast S5000x64 x0 shapeCasts_S5000x64_S5000x64)
        (broadcastTo S5000x64 (shapeCast S1x64 x1 shapeCasts_S64_S1x64) broadcasts_S1x64_S5000x64))
      (broadcast S5000x64 (Scalar.ofBits (F := Ideal) .f32 0x00000000#32)) (ix2 p k)
      = max (x0 (ix2 p k) + x1 (ix1 k)) 0 := by
  show max (shapeCast S5000x64 x0 shapeCasts_S5000x64_S5000x64 (ix2 p k)
      + broadcastTo S5000x64 (shapeCast S1x64 x1 shapeCasts_S64_S1x64) broadcasts_S1x64_S5000x64 (ix2 p k))
      (Ideal.ofBits .f32 0x00000000#32) = _
  rw [shapeCast_self, Ideal.ofBits_zero_f32]
  refine congrArg (max · 0) (congrArg (x0 (ix2 p k) + ·) ?_)
  exact (broadcastTo_1b_ab_apply _ broadcasts_S1x64_S5000x64 p k).trans (shapeCast_a_1a_apply x1 shapeCasts_S64_S1x64 0 k)

/-- Entry (p, q) of the second region's payload: Σ_k max (x0[p, k] + x1[k]) 0 · x2[k, q]. -/
theorem reluProj_apply (x0 : Vec Ideal S5000x64 .f32) (x1 : Vec Ideal S64 .f32) (x2 : Vec Ideal S64x64 .f32) (p : Fin 5000) (q : Fin 64) :
    k1_pay1 x0 x1 x2 (ix2 p q) = ∑ k : Fin 64, max (x0 (ix2 p k) + x1 (ix1 k)) 0 * x2 (ix2 k q) := by
  unfold k1_pay1
  show FloatOps.matmul dot_S5000x64_S64x64_S5000x64_1_0_0_1_n_n none
      (truncf .bf16 (maximumf (addf (shapeCast S5000x64 x0 shapeCasts_S5000x64_S5000x64)
          (broadcastTo S5000x64 (shapeCast S1x64 x1 shapeCasts_S64_S1x64) broadcasts_S1x64_S5000x64))
        (broadcast S5000x64 (Scalar.ofBits (F := Ideal) .f32 0x00000000#32))) bitsLt_bf16_f32)
      (truncf .bf16 (shapeCast S64x64 x2 shapeCasts_S64x64_S64x64) bitsLt_bf16_f32)
      (constant (F := Ideal) S5000x64 .f32 0x00000000#32) (ix2 p q) = _
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact rp_lhs_row _ _
    | ⟨1, _⟩ => exact (rp_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rp_rhs_row _ _).trans hk
    | ⟨1, _⟩ => exact rp_rhs_col _ _)
  rw [el, er]
  show maximumf (addf (shapeCast S5000x64 x0 shapeCasts_S5000x64_S5000x64)
        (broadcastTo S5000x64 (shapeCast S1x64 x1 shapeCasts_S64_S1x64) broadcasts_S1x64_S5000x64))
      (broadcast S5000x64 (Scalar.ofBits (F := Ideal) .f32 0x00000000#32)) (ix2 p k)
      * shapeCast S64x64 x2 shapeCasts_S64x64_S64x64 (ix2 k q) = _
  rw [rect_apply, shapeCast_self]

/-- The printed index maps of the second region, decided over its ten grid points. -/
theorem index_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row-block input of the second region at point t holds rows 5000 t … 5000 t + 4999 of its array. -/
theorem rows1_0 (c : Dev nD) (t : Fin cfg1.N) (p : Fin 5000) (k : Fin 64) (n : Fin 50000) (hn : n.val = t.val * 5000 + p.val) :
    (iblk1 V c 0 t : Vec Ideal S5000x64 .f32) (ix2 p k) = (V c main_v43 : S50000x64.Idx → EReal) (ix2 n k) := by
  obtain ⟨e0, e1, -⟩ := index_facts1 t
  unfold iblk1
  rw [View.read_apply]
  show V c main_v43 _ = V c main_v43 _
  refine congrArg (V c main_v43) (funext fun a => Fin.ext ?_)
  match a with
  | ⟨0, _⟩ => show win1_0.index t (0 : Fin 2) * 5000 + 1 * p.val = n.val; omega
  | ⟨1, _⟩ => show win1_0.index t (1 : Fin 2) * 64 + 1 * k.val = k.val; omega

/-- The bias input of the second region at any point holds its whole array. -/
theorem whole1_1 (c : Dev nD) (t : Fin cfg1.N) (k : Fin 64) :
    (iblk1 V c 1 t : Vec Ideal S64 .f32) (ix1 k) = (V c main_arg3 : S64.Idx → EReal) (ix1 k) := by
  obtain ⟨-, -, e2, -⟩ := index_facts1 t
  unfold iblk1
  rw [View.read_apply]
  show V c main_arg3 _ = V c main_arg3 _
  refine congrArg (V c main_arg3) (funext fun a => Fin.ext ?_)
  match a with
  | ⟨0, _⟩ => show win1_1.index t (0 : Fin 1) * 64 + 1 * k.val = k.val; omega

/-- The weight input of the second region at any point holds its whole array. -/
theorem whole1_2 (c : Dev nD) (t : Fin cfg1.N) (k : Fin 64) (q : Fin 64) :
    (iblk1 V c 2 t : Vec Ideal S64x64 .f32) (ix2 k q) = (V c main_v44 : S64x64.Idx → EReal) (ix2 k q) := by
  obtain ⟨-, -, -, e3, e4, -⟩ := index_facts1 t
  unfold iblk1
  rw [View.read_apply]
  show V c main_v44 _ = V c main_v44 _
  refine congrArg (V c main_v44) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- A block of the rectified projection: when the loaded block is rows 5000 T … of `A`, the loaded bias is `B` and the
    loaded weight is `W`, the payload at a block index is the specification at the array index under it. -/
theorem reluProj_block (A : S50000x64.Idx → EReal) (B : S64.Idx → EReal) (W : S64x64.Idx → EReal)
    (x0 : Vec Ideal S5000x64 .f32) (x1 : Vec Ideal S64 .f32) (x2 : Vec Ideal S64x64 .f32)
    (T : Nat) (h0 : ∀ (p : Fin 5000) (k : Fin 64) (n : Fin 50000), n.val = T * 5000 + p.val → x0 (ix2 p k) = A (ix2 n k))
    (h1 : ∀ k : Fin 64, x1 (ix1 k) = B (ix1 k)) (h2 : ∀ (k : Fin 64) (q : Fin 64), x2 (ix2 k q) = W (ix2 k q))
    (y : S5000x64.Idx) (i : S50000x64.Idx)
    (hi0 : (i 0).val = T * 5000 + (y 0).val) (hi1 : (i 1).val = (y 1).val) :
    k1_pay1 x0 x1 x2 y = Cert.Gcn.reluProj A B W i := by
  obtain ⟨p, q, rfl⟩ : ∃ (p : Fin 5000) (q : Fin 64), y = ix2 p q := ⟨y 0, y 1, eq_ix2 y⟩
  rw [reluProj_apply]
  unfold Cert.Gcn.reluProj
  have hi0' : (i 0).val = T * 5000 + p.val := hi0
  have hi1' : (i 1).val = q.val := hi1
  refine Finset.sum_congr rfl fun k _ => ?_
  rw [h0 p k (Cert.Gcn.row i) hi0', h1 k, h2 k q]
  refine congrArg (max (A (ix2 (Cert.Gcn.row i) k) + B (ix1 k)) 0 * ·) (congrArg W ?_)
  exact funext fun a => Fin.ext (by match a with | ⟨0, _⟩ => rfl | ⟨1, _⟩ => exact hi1'.symm)

/-- What point t of the second region writes back is block t of the rectified projection of the region's input arrays. -/
theorem flushed1_3_eq (c : Dev nD) (t : Fin cfg1.N) :
    (dat1 (F := Ideal) V c).flushed 3 t
      = ((cfg1.win 3).blk t).view.read (Elt Ideal) (Cert.Gcn.reluProj (V c main_v43) (V c main_arg3) (V c main_v44)) := by
  show (cfg1.win 3).cut (grid1.coords t) ((dat1 V c).after 3 t) = _
  rw [after1_3]
  unfold out1_3
  rw [View.canon_unit_zero zero_offsets2]
  simp only [View.ld_unit_zero (S := S5000x64) zero_offsets2, View.ld_unit_zero (S := S64) zero_offsets1,
    View.ld_unit_zero (S := S64x64) zero_offsets2]
  obtain ⟨-, -, -, -, -, e5, e6⟩ := index_facts1 t
  funext j
  show k1_pay1 (iblk1 V c 0 t) (iblk1 V c 1 t) (iblk1 V c 2 t) ((cfg1.win 3).xinj (grid1.coords t) j)
      = Cert.Gcn.reluProj (V c main_v43) (V c main_arg3) (V c main_v44) (((cfg1.win 3).blk t).view.emb j)
  refine reluProj_block (V c main_v43) (V c main_arg3) (V c main_v44) (iblk1 V c 0 t) (iblk1 V c 1 t) (iblk1 V c 2 t) t.val
    (rows1_0 V c t) (whole1_1 V c t) (whole1_2 V c t) _ _ ?_ ?_
  · show win1_3.index t (0 : Fin 2) * 5000 + 1 * (j 0).val = t.val * 5000 + (j 0).val; omega
  · show win1_3.index t (1 : Fin 2) * 64 + 1 * (j 1).val = (j 1).val; omega

/-- An index of the projection's array is in point t's block iff each coordinate is in the block's range on its axis. -/
theorem mem_blk1_3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the projection's array is in some point's block: row r is in the block of point r / 5000. -/
theorem cover1_3_all (i : S50000x64.Idx) :
    ∃ t : Fin cfg1.N, (cfg1.win 3).flush t = true ∧ i ∈ ((cfg1.win 3).blk t).view.set := by
  have hi0 : (i 0).val < 50000 := idx2_lt0 i
  have hi1 : (i 1).val < 64 := idx2_lt1 i
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, e5, e6⟩ := index_facts1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The second region's output array after the region: bias, rectifier and the product with the joined weight. -/
theorem final1 (c : Dev nD) :
    (dat1 (F := Ideal) V c).arrAt 3 cfg1.N = Cert.Gcn.reluProj (V c main_v43) (V c main_arg3) (V c main_v44) :=
  (dat1 (F := Ideal) V c).arrAt_eq_of_cover 3 (Cert.Gcn.reluProj (V c main_v43) (V c main_arg3) (V c main_v44))
    (fun t _ => flushed1_3_eq V c t) cover1_3_all

/-! ## The third region: each half of a 64-column array plus a bias row -/

/-- Entry (p, q) of the left head's payload: column q of the loaded block plus the bias at q. -/
theorem headLeft_apply (x0 : Vec Ideal S5000x64 .f32) (x1 : Vec Ideal S32 .f32) (p : Fin 5000) (q : Fin 32) :
    k2_pay2 x0 x1 (ix2 p q) = x0 (ix2 p ⟨q.val, by omega⟩) + x1 (ix1 q) := by
  unfold k2_pay2 k2_pay1
  show (extractStridedSlice S5000x32 ![0, 0] (shapeCast S5000x64 x0 shapeCasts_S5000x64_S5000x64) slices_S5000x64_o0_0_S5000x32 (ix2 p q))
      + (broadcastTo S5000x32 (shapeCast S1x32 x1 shapeCasts_S32_S1x32) broadcasts_S1x32_S5000x32 (ix2 p q)) = _
  rw [shapeCast_self]
  refine congrArg₂ (· + ·) ?_ ?_
  · exact slice2_axis1_apply 0 x0 slices_S5000x64_o0_0_S5000x32 p q ⟨q.val, by omega⟩ (Nat.zero_add _).symm
  · exact (broadcastTo_1b_ab_apply _ broadcasts_S1x32_S5000x32 p q).trans (shapeCast_a_1a_apply x1 shapeCasts_S32_S1x32 0 q)

/-- Entry (p, q) of the right head's payload: column 32 + q of the loaded block plus the bias at q. -/
theorem headRight_apply (x0 : Vec Ideal S5000x64 .f32) (x2 : Vec Ideal S32 .f32) (p : Fin 5000) (q : Fin 32) :
    k2_pay3 x0 x2 (ix2 p q) = x0 (ix2 p ⟨q.val + 32, by omega⟩) + x2 (ix1 q) := by
  unfold k2_pay3 k2_pay1
  show (extractStridedSlice S5000x32 ![0, 32] (shapeCast S5000x64 x0 shapeCasts_S5000x64_S5000x64) slices_S5000x64_o0_32_S5000x32 (ix2 p q))
      + (broadcastTo S5000x32 (shapeCast S1x32 x2 shapeCasts_S32_S1x32) broadcasts_S1x32_S5000x32 (ix2 p q)) = _
  rw [shapeCast_self]
  refine congrArg₂ (· + ·) ?_ ?_
  · exact slice2_axis1_apply 32 x0 slices_S5000x64_o0_32_S5000x32 p q ⟨q.val + 32, by omega⟩ (Nat.add_comm _ _)
  · exact (broadcastTo_1b_ab_apply _ broadcasts_S1x32_S5000x32 p q).trans (shapeCast_a_1a_apply x2 shapeCasts_S32_S1x32 0 q)

/-- The printed index maps of the third region, decided over its ten grid points: a row-block window sits at block
    (t, 0), a bias window at block 0. -/
theorem index_facts2 : ∀ t : Fin cfg2.N, win2_0.index t (0 : Fin 2) = t.val ∧ win2_0.index t (1 : Fin 2) = 0
    ∧ win2_1.index t (0 : Fin 1) = 0 ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The row-block input of the third region at point t holds rows 5000 t … 5000 t + 4999 of its array. -/
theorem rows2_0 (c : Dev nD) (t : Fin cfg2.N) (p : Fin 5000) (k : Fin 64) (n : Fin 50000) (hn : n.val = t.val * 5000 + p.val) :
    (iblk2 V c 0 t : Vec Ideal S5000x64 .f32) (ix2 p k) = (V c main_v58 : S50000x64.Idx → EReal) (ix2 n k) := by
  obtain ⟨e0, e1, -⟩ := index_facts2 t
  unfold iblk2
  rw [View.read_apply]
  show V c main_v58 _ = V c main_v58 _
  refine congrArg (V c main_v58) (funext fun a => Fin.ext ?_)
  match a with
  | ⟨0, _⟩ => show win2_0.index t (0 : Fin 2) * 5000 + 1 * p.val = n.val; omega
  | ⟨1, _⟩ => show win2_0.index t (1 : Fin 2) * 64 + 1 * k.val = k.val; omega

/-- The first bias input of the third region at any point holds its whole array. -/
theorem whole2_1 (c : Dev nD) (t : Fin cfg2.N) (q : Fin 32) :
    (iblk2 V c 1 t : Vec Ideal S32 .f32) (ix1 q) = (V c main_arg5 : S32.Idx → EReal) (ix1 q) := by
  obtain ⟨-, -, e2, -⟩ := index_facts2 t
  unfold iblk2
  rw [View.read_apply]
  show V c main_arg5 _ = V c main_arg5 _
  refine congrArg (V c main_arg5) (funext fun a => Fin.ext ?_)
  match a with
  | ⟨0, _⟩ => show win2_1.index t (0 : Fin 1) * 32 + 1 * q.val = q.val; omega

/-- The second bias input of the third region at any point holds its whole array. -/
theorem whole2_2 (c : Dev nD) (t : Fin cfg2.N) (q : Fin 32) :
    (iblk2 V c 2 t : Vec Ideal S32 .f32) (ix1 q) = (V c main_arg7 : S32.Idx → EReal) (ix1 q) := by
  obtain ⟨-, -, -, e3, -⟩ := index_facts2 t
  unfold iblk2
  rw [View.read_apply]
  show V c main_arg7 _ = V c main_arg7 _
  refine congrArg (V c main_arg7) (funext fun a => Fin.ext ?_)
  match a with
  | ⟨0, _⟩ => show win2_2.index t (0 : Fin 1) * 32 + 1 * q.val = q.val; omega

/-- A block of the left head: when the loaded block is rows 5000 T … of `A` and the loaded bias is `B`, the payload at a
    block index is the left head of `A` and `B` at the array index under it. -/
theorem headLeft_block (A : S50000x64.Idx → EReal) (B : S32.Idx → EReal) (x0 : Vec Ideal S5000x64 .f32) (x1 : Vec Ideal S32 .f32)
    (T : Nat) (h0 : ∀ (p : Fin 5000) (k : Fin 64) (n : Fin 50000), n.val = T * 5000 + p.val → x0 (ix2 p k) = A (ix2 n k))
    (h1 : ∀ q : Fin 32, x1 (ix1 q) = B (ix1 q)) (y : S5000x32.Idx) (i : S50000x32.Idx)
    (hi0 : (i 0).val = T * 5000 + (y 0).val) (hi1 : (i 1).val = (y 1).val) :
    k2_pay2 x0 x1 y = Cert.Gcn.biasLeft A B i := by
  obtain ⟨p, q, rfl⟩ : ∃ (p : Fin 5000) (q : Fin 32), y = ix2 p q := ⟨y 0, y 1, eq_ix2 y⟩
  rw [headLeft_apply]
  unfold Cert.Gcn.biasLeft
  have hi0' : (i 0).val = T * 5000 + p.val := hi0
  have hi1' : (i 1).val = q.val := hi1
  rw [h0 p ⟨q.val, by omega⟩ (Cert.Gcn.row i) hi0', h1 q]
  refine congrArg₂ (· + ·) (congrArg A ?_) (congrArg B ?_)
  · exact funext fun a => Fin.ext (by match a with | ⟨0, _⟩ => rfl | ⟨1, _⟩ => exact hi1'.symm)
  · exact funext fun a => Fin.ext (by match a with | ⟨0, _⟩ => exact hi1'.symm)

/-- A block of the right head, likewise. -/
theorem headRight_block (A : S50000x64.Idx → EReal) (B : S32.Idx → EReal) (x0 : Vec Ideal S5000x64 .f32) (x2 : Vec Ideal S32 .f32)
    (T : Nat) (h0 : ∀ (p : Fin 5000) (k : Fin 64) (n : Fin 50000), n.val = T * 5000 + p.val → x0 (ix2 p k) = A (ix2 n k))
    (h2 : ∀ q : Fin 32, x2 (ix1 q) = B (ix1 q)) (y : S5000x32.Idx) (i : S50000x32.Idx)
    (hi0 : (i 0).val = T * 5000 + (y 0).val) (hi1 : (i 1).val = (y 1).val) :
    k2_pay3 x0 x2 y = Cert.Gcn.biasRight A B i := by
  obtain ⟨p, q, rfl⟩ : ∃ (p : Fin 5000) (q : Fin 32), y = ix2 p q := ⟨y 0, y 1, eq_ix2 y⟩
  rw [headRight_apply]
  unfold Cert.Gcn.biasRight
  have hi0' : (i 0).val = T * 5000 + p.val := hi0
  have hi1' : (i 1).val = q.val := hi1
  rw [h0 p ⟨q.val + 32, by omega⟩ (Cert.Gcn.row i) hi0', h2 q]
  refine congrArg₂ (· + ·) (congrArg A ?_) (congrArg B ?_)
  · exact funext fun a => Fin.ext (by match a with | ⟨0, _⟩ => rfl | ⟨1, _⟩ => show q.val + 32 = (i 1).val + 32; omega)
  · exact funext fun a => Fin.ext (by match a with | ⟨0, _⟩ => exact hi1'.symm)

/-- What point t of the third region writes back to the left head's array is block t of the left head of the region's
    input arrays. -/
theorem flushed2_3_eq (c : Dev nD) (t : Fin cfg2.N) :
    (dat2 (F := Ideal) V c).flushed 3 t
      = ((cfg2.win 3).blk t).view.read (Elt Ideal) (Cert.Gcn.biasLeft (V c main_v58) (V c main_arg5)) := by
  show (cfg2.win 3).cut (grid2.coords t) ((dat2 V c).after 3 t) = _
  rw [after2_3]
  unfold out2_3
  rw [View.canon_unit_zero zero_offsets2]
  simp only [View.ld_unit_zero (S := S5000x64) zero_offsets2, View.ld_unit_zero (S := S32) zero_offsets1]
  obtain ⟨-, -, -, -, e4, e5, -⟩ := index_facts2 t
  funext j
  show k2_pay2 (iblk2 V c 0 t) (iblk2 V c 1 t) ((cfg2.win 3).xinj (grid2.coords t) j)
      = Cert.Gcn.biasLeft (V c main_v58) (V c main_arg5) (((cfg2.win 3).blk t).view.emb j)
  refine headLeft_block (V c main_v58) (V c main_arg5) (iblk2 V c 0 t) (iblk2 V c 1 t) t.val (rows2_0 V c t) (whole2_1 V c t) _ _ ?_ ?_
  · show win2_3.index t (0 : Fin 2) * 5000 + 1 * (j 0).val = t.val * 5000 + (j 0).val; omega
  · show win2_3.index t (1 : Fin 2) * 32 + 1 * (j 1).val = (j 1).val; omega

/-- What point t of the third region writes back to the right head's array is block t of the right head of the region's
    input arrays. -/
theorem flushed2_4_eq (c : Dev nD) (t : Fin cfg2.N) :
    (dat2 (F := Ideal) V c).flushed 4 t
      = ((cfg2.win 4).blk t).view.read (Elt Ideal) (Cert.Gcn.biasRight (V c main_v58) (V c main_arg7)) := by
  show (cfg2.win 4).cut (grid2.coords t) ((dat2 V c).after 4 t) = _
  rw [after2_4]
  unfold out2_4
  rw [View.canon_unit_zero zero_offsets2]
  simp only [View.ld_unit_zero (S := S5000x64) zero_offsets2, View.ld_unit_zero (S := S32) zero_offsets1]
  obtain ⟨-, -, -, -, -, -, e6, e7⟩ := index_facts2 t
  funext j
  show k2_pay3 (iblk2 V c 0 t) (iblk2 V c 2 t) ((cfg2.win 4).xinj (grid2.coords t) j)
      = Cert.Gcn.biasRight (V c main_v58) (V c main_arg7) (((cfg2.win 4).blk t).view.emb j)
  refine headRight_block (V c main_v58) (V c main_arg7) (iblk2 V c 0 t) (iblk2 V c 2 t) t.val (rows2_0 V c t) (whole2_2 V c t) _ _ ?_ ?_
  · show win2_4.index t (0 : Fin 2) * 5000 + 1 * (j 0).val = t.val * 5000 + (j 0).val; omega
  · show win2_4.index t (1 : Fin 2) * 32 + 1 * (j 1).val = (j 1).val; omega

/-- An index of the left head's array is in point t's block iff each coordinate is in the block's range on its axis. -/
theorem mem_blk2_3 (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v59_0).slice (win2_3.rect t)).set ↔ _
  rw [View.set_slice_whole, Rect.mem_set_unit]
  exact Iff.rfl

/-- The same for the right head's array. -/
theorem mem_blk2_4 (t : Fin cfg2.N) (i : S50000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v59_1).slice (win2_4.rect t)).set ↔ _
  rw [View.set_slice_whole, Rect.mem_set_unit]
  exact Iff.rfl

/-- Every index of the left head's array is in some point's block: row r is in the block of point r / 5000. -/
theorem cover2_3_all (i : S50000x32.Idx) :
    ∃ t : Fin cfg2.N, (cfg2.win 3).flush t = true ∧ i ∈ ((cfg2.win 3).blk t).view.set := by
  have hi0 : (i 0).val < 50000 := idx2_lt0 i
  have hi1 : (i 1).val < 32 := idx2_lt1 i
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, e4, e5, -⟩ := index_facts2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- Every index of the right head's array is in some point's block, likewise. -/
theorem cover2_4_all (i : S50000x32.Idx) :
    ∃ t : Fin cfg2.N, (cfg2.win 4).flush t = true ∧ i ∈ ((cfg2.win 4).blk t).view.set := by
  have hi0 : (i 0).val < 50000 := idx2_lt0 i
  have hi1 : (i 1).val < 32 := idx2_lt1 i
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨-, -, -, -, -, -, e6, e7⟩ := index_facts2 t
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 32 ≤ (i 1).val ∧ (i 1).val < win2_4.index t (1 : Fin 2) * 32 + 32; omega

/-- The left head's array after the third region: the left half of the region's first input plus the first bias row. -/
theorem final2_left (c : Dev nD) :
    (dat2 (F := Ideal) V c).arrAt 3 cfg2.N = Cert.Gcn.biasLeft (V c main_v58) (V c main_arg5) :=
  (dat2 (F := Ideal) V c).arrAt_eq_of_cover 3 (Cert.Gcn.biasLeft (V c main_v58) (V c main_arg5))
    (fun t _ => flushed2_3_eq V c t) cover2_3_all

/-- The right head's array after the third region: the right half of the region's first input plus the second bias row. -/
theorem final2_right (c : Dev nD) :
    (dat2 (F := Ideal) V c).arrAt 4 cfg2.N = Cert.Gcn.biasRight (V c main_v58) (V c main_arg7) :=
  (dat2 (F := Ideal) V c).arrAt_eq_of_cover 4 (Cert.Gcn.biasRight (V c main_v58) (V c main_arg7))
    (fun t _ => flushed2_4_eq V c t) cover2_4_all

end Cert.KernelIdeal.Blocks

end
-- ==== Proof.KernelValue.lean ====
/-
  The idealized kernel program's two results as functions of the arguments: chaining what each region leaves
  (the feature product; bias, rectifier and projection; the two biased halves) through the aggregations between
  them.  Every buffer a region reads is traced back through the fold of the program: the edge data and the arguments
  are never overwritten, a region's result is read by the next stretch of host operations.
-/
import proofs.«163162_j3032246911086_1_alg».proof.Proof.KernelFold
import proofs.«163162_j3032246911086_1_alg».proof.Proof.KernelBlocks

set_option maxRecDepth 16384

noncomputable section

namespace Cert.KernelIdeal.Result

open Cert.KernelIdeal Cert.KernelIdeal.Gen Cert.KernelIdeal.Fold
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The edge data and the arguments stay put across the regions -/

theorem W4_v3 (c : Dev nD) : W4 m ρ c (Proc.devRef .tc main_v3)
    = Cert.ReferenceIdeal.ReadP.val_main_v3 (F := Ideal) (m ((c : Thread nD τ).loc main_arg1)) :=
  (W4_of_ne m ρ c main_v3 (by decide)).trans (W3_v3 m ρ c)
theorem W4_v6 (c : Dev nD) : W4 m ρ c (Proc.devRef .tc main_v6)
    = Cert.ReferenceIdeal.ReadP.val_main_v6 (F := Ideal) (m ((c : Thread nD τ).loc main_arg1)) :=
  (W4_of_ne m ρ c main_v6 (by decide)).trans (W3_v6 m ρ c)
theorem W4_v29 (c : Dev nD) : W4 m ρ c (Proc.devRef .tc main_v29)
    = Cert.ReferenceIdeal.ReadP.val_main_v29 (F := Ideal) (m ((c : Thread nD τ).loc main_arg1)) :=
  (W4_of_ne m ρ c main_v29 (by decide)).trans (W3_v29 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-- The first region's result: the product of the node features with the first weight. -/
theorem W4_v30 (c : Dev nD) : W4 m ρ c (Proc.devRef .tc main_v30)
    = Cert.Gcn.mm (m ((c : Thread nD τ).loc main_arg0)) (m ((c : Thread nD τ).loc main_arg2)) :=
  (W4_arr m ρ c 2).trans ((Cert.KernelIdeal.Blocks.final0 (V3 m ρ) c).trans
    (congrArg₂ Cert.Gcn.mm (W3_arg0 m ρ c) (W3_arg2 m ρ c)))

/-- The first aggregation, of the first region's result. -/
theorem W5_v43_val (c : Dev nD) : W5 m ρ c (Proc.devRef .tc main_v43)
    = aggK (Cert.ReferenceIdeal.ReadP.val_main_v3 (F := Ideal) (m ((c : Thread nD τ).loc main_arg1)))
        (Cert.ReferenceIdeal.ReadP.val_main_v6 (F := Ideal) (m ((c : Thread nD τ).loc main_arg1)))
        (Cert.ReferenceIdeal.ReadP.val_main_v29 (F := Ideal) (m ((c : Thread nD τ).loc main_arg1)))
        (Cert.Gcn.mm (m ((c : Thread nD τ).loc main_arg0)) (m ((c : Thread nD τ).loc main_arg2))) := by
  rw [W5_v43 m ρ c, W4_v3 m ρ c, W4_v6 m ρ c, W4_v29 m ρ c, W4_v30 m ρ c]

/-- The second region's result: bias, rectifier and the product with the joined head weights, of the first
    aggregation. -/
theorem W6_v45 (c : Dev nD) : W6 m ρ c (Proc.devRef .tc main_v45)
    = Cert.Gcn.reluProj
        (aggK (Cert.ReferenceIdeal.ReadP.val_main_v3 (F := Ideal) (m ((c : Thread nD τ).loc main_arg1)))
          (Cert.ReferenceIdeal.ReadP.val_main_v6 (F := Ideal) (m ((c : Thread nD τ).loc main_arg1)))
          (Cert.ReferenceIdeal.ReadP.val_main_v29 (F := Ideal) (m ((c : Thread nD τ).loc main_arg1)))
          (Cert.Gcn.mm (m ((c : Thread nD τ).loc main_arg0)) (m ((c : Thread nD τ).loc main_arg2))))
        (m ((c : Thread nD τ).loc main_arg3))
        (concatenate S64x64 1 [⟨S64x32, m ((c : Thread nD τ).loc main_arg4)⟩, ⟨S64x32, m ((c : Thread nD τ).loc main_arg6)⟩]
          concatenates_S64x32_S64x32_S64x64_d1) := by
  refine (W6_arr m ρ c 3).trans ((Cert.KernelIdeal.Blocks.final1 (V5 m ρ) c).trans ?_)
  show Cert.Gcn.reluProj (W5 m ρ c (Proc.devRef .tc main_v43)) (W5 m ρ c (Proc.devRef .tc main_arg3))
      (W5 m ρ c (Proc.devRef .tc main_v44)) = _
  rw [W5_v43_val m ρ c, W5_arg3 m ρ c, W4_arg3 m ρ c, W5_v44 m ρ c, W4_arg4 m ρ c, W4_arg6 m ρ c]

theorem W6_v3 (c : Dev nD) : W6 m ρ c (Proc.devRef .tc main_v3)
    = Cert.ReferenceIdeal.ReadP.val_main_v3 (F := Ideal) (m ((c : Thread nD τ).loc main_arg1)) :=
  (W6_of_ne m ρ c main_v3 (by decide)).trans ((W5_v3 m ρ c).trans (W4_v3 m ρ c))
theorem W6_v6 (c : Dev nD) : W6 m ρ c (Proc.devRef .tc main_v6)
    = Cert.ReferenceIdeal.ReadP.val_main_v6 (F := Ideal) (m ((c : Thread nD τ).loc main_arg1)) :=
  (W6_of_ne m ρ c main_v6 (by decide)).trans ((W5_v6 m ρ c).trans (W4_v6 m ρ c))
theorem W6_v29 (c : Dev nD) : W6 m ρ c (Proc.devRef .tc main_v29)
    = Cert.ReferenceIdeal.ReadP.val_main_v29 (F := Ideal) (m ((c : Thread nD τ).loc main_arg1)) :=
  (W6_of_ne m ρ c main_v29 (by decide)).trans ((W5_v29 m ρ c).trans (W4_v29 m ρ c))
theorem W6_arg5 (c : Dev nD) : W6 m ρ c (Proc.devRef .tc main_arg5) = m ((c : Thread nD τ).loc main_arg5) :=
  (W6_of_ne m ρ c main_arg5 (by decide)).trans ((W5_arg5 m ρ c).trans (W4_arg5 m ρ c))
theorem W6_arg7 (c : Dev nD) : W6 m ρ c (Proc.devRef .tc main_arg7) = m ((c : Thread nD τ).loc main_arg7) :=
  (W6_of_ne m ρ c main_arg7 (by decide)).trans ((W5_arg7 m ρ c).trans (W4_arg7 m ρ c))

/-- The whole value before the last region: aggregate, bias-rectify-project, aggregate again. -/
def hidden (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 x6 : (⟨S64x32, .f32⟩ : BufTy).Contents (Elt Ideal)) : (⟨S50000x64, .f32⟩ : BufTy).Contents (Elt Ideal) :=
  aggK (Cert.ReferenceIdeal.ReadP.val_main_v3 (F := Ideal) x1) (Cert.ReferenceIdeal.ReadP.val_main_v6 (F := Ideal) x1)
    (Cert.ReferenceIdeal.ReadP.val_main_v29 (F := Ideal) x1)
    (Cert.Gcn.reluProj
      (aggK (Cert.ReferenceIdeal.ReadP.val_main_v3 (F := Ideal) x1) (Cert.ReferenceIdeal.ReadP.val_main_v6 (F := Ideal) x1)
        (Cert.ReferenceIdeal.ReadP.val_main_v29 (F := Ideal) x1) (Cert.Gcn.mm x0 x2))
      x3 (concatenate S64x64 1 [⟨S64x32, x4⟩, ⟨S64x32, x6⟩] concatenates_S64x32_S64x32_S64x64_d1))

/-- The second aggregation, of the second region's result. -/
theorem W7_v58_val (c : Dev nD) : W7 m ρ c (Proc.devRef .tc main_v58)
    = hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  rw [W7_v58 m ρ c, W6_v3 m ρ c, W6_v6 m ρ c, W6_v29 m ρ c, W6_v45 m ρ c]
  rfl

/-- The first result: the left half of the second aggregation plus the first head's bias. -/
theorem out_left (c : Dev nD) : W8 m ρ c (Proc.devRef .tc main_v59_0)
    = Cert.Gcn.biasLeft
        (hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)))
        (m ((c : Thread nD τ).loc main_arg5)) := by
  refine (W8_arr m ρ c 3).trans ((Cert.KernelIdeal.Blocks.final2_left (V7 m ρ) c).trans ?_)
  show Cert.Gcn.biasLeft (W7 m ρ c (Proc.devRef .tc main_v58)) (W7 m ρ c (Proc.devRef .tc main_arg5)) = _
  rw [W7_v58_val m ρ c, W7_arg5 m ρ c, W6_arg5 m ρ c]

/-- The second result: the right half of the second aggregation plus the second head's bias. -/
theorem out_right (c : Dev nD) : W8 m ρ c (Proc.devRef .tc main_v59_1)
    = Cert.Gcn.biasRight
        (hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)))
        (m ((c : Thread nD τ).loc main_arg7)) := by
  refine (W8_arr m ρ c 4).trans ((Cert.KernelIdeal.Blocks.final2_right (V7 m ρ) c).trans ?_)
  show Cert.Gcn.biasRight (W7 m ρ c (Proc.devRef .tc main_v58)) (W7 m ρ c (Proc.devRef .tc main_arg7)) = _
  rw [W7_v58_val m ρ c, W7_arg7 m ρ c, W6_arg7 m ρ c]

end Cert.KernelIdeal.Result

end
-- ==== Proof.LibRowScatter.lean ====
/-
  ROW GATHER AND ACCUMULATING ROW SCATTER, READ AT AN INDEX.

  Two StableHLO host operations on a matrix `[N, C]` whose rows are addressed by an integer column `[E, 1]`, with
  the "rows" dimension numbers that `h[src]` (take rows) and a segment sum over destination rows lower to:

  * the row gather (offset_dims `[1]`, collapsed_slice_dims `[0]`, start_index_map `[0]`, index_vector_dim 1,
    slice_sizes `[1, C]`): result element `(e, q)` is the operand at row `idx[e, 0]` — read as a signed integer and
    clamped into `[0, N − 1]` — and column `q` (`gather_rows_apply`);
  * the scatter with an `add` body at the ideal instance (update_window_dims `[1]`, inserted_window_dims `[0]`,
    scatter_dims_to_operand_dims `[0]`, index_vector_dim 1): result element `(n, q)` is the operand's plus the sum
    of `upd[e, q]` over the rows `e` of the updates whose index `idx[e, 0]`, read signed and NOT clamped, is `n`
    (`scatterAdd_rows_apply`); an update row whose index is outside `[0, N)` lands nowhere.

  Everything is stated for arbitrary extents `N`, `E`, `C` and index width `w`; the dimension numbers' side
  conditions are a hypothesis `wf`, decided on a program's literal shapes.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The row gather: `result[e, q] = operand[clamp(idx[e, 0]), q]` -/

section Gather
variable {α : Type}

/-- The row gather's dimension numbers for an operand `[N, C]`, start indices `[E, 1]` and result `[E, C]`:
    axis 0 of the operand is collapsed and is the one the start index addresses, axis 1 is the offset axis and is
    taken whole (slice sizes `[1, C]`); the index vector lives on axis 1 of the start indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the row `idx[e, 0]`, read as a signed integer and clamped into
    `[0, N − 1]`, and at the same column `q`. (On axis 0 the slice has size 1, so the start is clamped to `N − 1`
    and there is no offset; on axis 1 the start is 0 and the offset is the result's column.) -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 ⟨min (idx (ix2 e ⟨0, Nat.one_pos⟩)).toInt.toNat (N - 1), by omega⟩ q) := by
  unfold Host.gather
  congr 1
  funext a
  refine Fin.ext ?_
  match a with
  | ⟨0, _⟩ =>
    -- the row: clamped start, no batching coordinate, no offset (the axis is collapsed)
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    -- the column: start 0 (the start index does not address this axis), offset the result's column
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    unfold GatherDims.start
    rw [dif_neg (show (1 : Fin 2) ∉ (rowGatherDims N E C wf).startIndexMap from
      (show (1 : Fin 2) ∉ [(0 : Fin 2)] from by decide))]
    simp only [Nat.add_zero, Nat.zero_add]
    unfold GatherDims.offCoord
    rw [dif_pos (show (1 : Fin 2) ∈ (rowGatherDims N E C wf).sKept from
      (GatherDims.mem_sKept _ _).2 ⟨(show (1 : Fin 2) ∉ [(0 : Fin 2)] from by decide), List.not_mem_nil⟩)]
    rfl

end Gather

/-! ## The accumulating row scatter: `result[n, q] = operand[n, q] + ∑_{e : idx[e, 0] = n} upd[e, q]` -/

/-- The row scatter's dimension numbers for an operand `[N, C]`, scatter indices `[E, 1]` and updates `[E, C]`:
    axis 1 of the updates is the window axis and goes to the operand's axis 1; the operand's axis 0 is an inserted
    window axis and is the one the scatter index addresses; the index vector lives on axis 1 of the scatter indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the operand's row axis the window of update `(e, c)` starts at the scatter index `idx[e, 0]`, read as a
    signed integer (not clamped). -/
theorem rowScatter_start0 (idx : IVec ⟨2, ![E, 1]⟩ w) (e : Fin E) (c : Fin C) :
    (rowScatterDims N E C wf).start (ix2 e c) idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the operand's column axis, which the scatter index does not address, the window starts at 0. -/
theorem rowScatter_start1 (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (show (1 : Fin 2) ∉ [(0 : Fin 2)] from by decide))]

/-- The row axis is an inserted window axis: the window coordinate of update `(e, c)` on it is 0. -/
theorem rowScatter_window0 (e : Fin E) (c : Fin C) :
    (rowScatterDims N E C wf).window (ix2 e c) 0 = 0 := by
  unfold ScatterDims.window
  rw [dif_neg]
  exact (show (0 : Fin 2) ∉ (List.finRange 2).filter (· ∉ [(0 : Fin 2)]) from by decide)

/-- The column axis receives the updates' window axis: the window coordinate of update `(e, c)` on it is `c`. -/
theorem rowScatter_window1 (e : Fin E) (c : Fin C) :
    (rowScatterDims N E C wf).window (ix2 e c) 1 = c.val := by
  unfold ScatterDims.window
  rw [dif_pos]
  · rfl
  · exact (show (1 : Fin 2) ∈ (List.finRange 2).filter (· ∉ [(0 : Fin 2)]) from by decide)

/-- WHERE AN UPDATE LANDS: update element `(e, c)` lands at operand element `(n, q)` exactly when its column is `q`
    and its scatter index `idx[e, 0]`, read signed, is `n`. (The landing index is `(idx[e, 0] + 0, 0 + c)`; the column
    `c < C` is always inside, the row is inside exactly when `0 ≤ idx[e, 0] < N`, and outside the update is dropped.) -/
theorem rowScatter_resultIdx?_eq_some_iff (idx : IVec ⟨2, ![E, 1]⟩ w) (e : Fin E) (c : Fin C) (n : Fin N) (q : Fin C) :
    (rowScatterDims N E C wf).resultIdx? (ix2 e c) idx = some (ix2 n q)
      ↔ c = q ∧ (idx (ix2 e ⟨0, Nat.one_pos⟩)).toInt = (n.val : Int) := by
  have hs0 := rowScatter_start0 wf idx e c
  have hs1 := rowScatter_start1 wf idx e c
  have hw0 := rowScatter_window0 wf e c
  have hw1 := rowScatter_window1 wf e c
  unfold ScatterDims.resultIdx?
  split
  · -- the landing index is inside the operand: compare it with `(n, q)` coordinate by coordinate
    rename_i h
    rw [Option.some.injEq]
    constructor
    · intro hf
      have h0 := congrArg Fin.val (congrFun hf 0)
      have h1 := congrArg Fin.val (congrFun hf 1)
      simp only [hs0, hs1, hw0, hw1] at h0 h1
      have hh := (h 0).1
      rw [hs0, hw0] at hh
      refine ⟨Fin.ext ?_, ?_⟩
      · have : ((ix2 n q : (⟨2, ![N, C]⟩ : Shape).Idx) 1).val = q.val := rfl
        omega
      · have : ((ix2 n q : (⟨2, ![N, C]⟩ : Shape).Idx) 0).val = n.val := rfl
        omega
    · rintro ⟨rfl, ht⟩
      funext a
      refine Fin.ext ?_
      match a with
      | ⟨0, _⟩ =>
        show ((rowScatterDims N E C wf).start (ix2 e c) idx 0
          + ((rowScatterDims N E C wf).window (ix2 e c) 0 : Int)).toNat = n.val
        rw [hs0, hw0, ht]; simp
      | ⟨1, _⟩ =>
        show ((rowScatterDims N E C wf).start (ix2 e c) idx 1
          + ((rowScatterDims N E C wf).window (ix2 e c) 1 : Int)).toNat = c.val
        rw [hs1, hw1]; simp
  · -- the landing index is outside: then the scatter index is not a row number, so the right side fails too
    rename_i h
    constructor
    · intro hf; exact absurd hf (by simp)
    · rintro ⟨rfl, ht⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int)
            < (N : Int)
        rw [hs0, hw0, ht]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int)
            < (C : Int)
        rw [hs1, hw1]
        have := c.isLt
        omega

/-- THE ACCUMULATING ROW SCATTER READ AT `(n, q)`, at the ideal instance: the operand's element plus the sum, over the
    update rows `e` whose scatter index `idx[e, 0]` (read signed, not clamped) is `n`, of `upd[e, q]`. (The sum over the
    update elements that land at `(n, q)` is split into rows and columns; in each row only column `q` can land there.) -/
theorem scatterAdd_rows_apply (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowScatterDims N E C wf) x idx upd (ix2 n q)
      = x (ix2 n q) + ∑ e : Fin E,
          if (idx (ix2 e ⟨0, Nat.one_pos⟩)).toInt = (n.val : Int) then upd (ix2 e q) else 0 := by
  unfold Ideal.hostScatterAdd
  congr 1
  rw [Finset.sum_filter, sum_idx2]
  refine Finset.sum_congr rfl fun e _ => ?_
  simp only [rowScatter_resultIdx?_eq_some_iff]
  by_cases ht : (idx (ix2 e ⟨0, Nat.one_pos⟩)).toInt = (n.val : Int)
  · simp only [ht, and_true, if_true]
    exact Finset.sum_ite_eq' Finset.univ q (fun c => upd (ix2 e c)) |>.trans (by simp)
  · simp only [ht, and_false, if_false]
    exact Finset.sum_const_zero

end Scatter

end Cert.Lib.RowOps

end
-- ==== Proof.Bridge.lean ====
/-
  THE REFERENCE PROGRAM AS A TWO-LAYER GRAPH CONVOLUTION.

  The reference computes, from the edge list `x1` (sources in row 0, destinations in row 1, a self loop appended for
  every node), one weight per edge and then three times the same NEIGHBOUR AGGREGATION: gather the source nodes' rows
  of an array, multiply each by its edge's weight, and scatter-add the results onto the destination nodes' rows. Read at
  an index, the aggregation of an array `h` is, at entry (n, q),

      Σ_{e : dst e = n}  h[src e, q] · wgt e

  (`agg64_apply`, `agg32_apply`): the sum runs over the edges whose destination is `n`, `src e` is the edge's source
  clamped into the node range, and the column `q` is untouched. So the aggregation acts column by column (`agg_col`),
  and the reference's two heads — each its own 32-column projection, aggregated on 32 columns — are the left and the
  right 32 columns of ONE 64-column projection by the joined weight, aggregated on 64 columns (`left_eq`, `right_eq`),
  with the whole-array functions `mm`, `reluProj`, `biasLeft`, `biasRight` of the specification.
-/
import proofs.«163162_j3032246911086_1_alg».proof.Proof.RefRead
import proofs.«163162_j3032246911086_1_alg».proof.Proof.Spec
import proofs.«163162_j3032246911086_1_alg».proof.Proof.LibRowScatter
import Idealize.ShloMosaic.Lib.Pipeline.Value
import Idealize.ShloMosaic.Lib.ValueIdx
import Idealize.ShloMosaic.PureOps.Ideal.Laws

noncomputable section

open scoped BigOperators

namespace Cert.Gcn.Bridge

open Idealize.ShloMosaic Idealize.ShloMosaic.ValueIdx Cert.ReferenceIdeal Cert.ReferenceIdeal.ReadP Cert.Lib.RowOps

/-- The neighbour aggregation on 64 columns: the scatter-add over destination rows of the gathered source rows
    times the edge weights. -/
def agg64 (x1 : (⟨S2x800000, .i32⟩ : BufTy).Contents (Elt Ideal)) (h : FVec Ideal S50000x64 .f32) : FVec Ideal S50000x64 .f32 :=
  Host.scatterAdd scatter_S50000x64_S850000x1_S850000x64_1_0_0_1 (val_main_v41 (F := Ideal)) (val_main_v42 (F := Ideal) x1)
    (mulf (Host.gather gather_S50000x64_S850000x1_S850000x64_1_0_n_n_0_1_164 h (val_main_v36 (F := Ideal) x1)) (val_main_v39 (F := Ideal) x1))

/-- The same aggregation on 32 columns. -/
def agg32 (x1 : (⟨S2x800000, .i32⟩ : BufTy).Contents (Elt Ideal)) (p : FVec Ideal S50000x32 .f32) : FVec Ideal S50000x32 .f32 :=
  Host.scatterAdd scatter_S50000x32_S850000x1_S850000x32_1_0_0_1 (val_main_v59 (F := Ideal)) (val_main_v60 (F := Ideal) x1)
    (mulf (Host.gather gather_S50000x32_S850000x1_S850000x32_1_0_n_n_0_1_132 p (val_main_v54 (F := Ideal) x1)) (val_main_v57 (F := Ideal) x1))

section
variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 x6 : (⟨S64x32, .f32⟩ : BufTy).Contents (Elt Ideal)) (x5 x7 : (⟨S32, .f32⟩ : BufTy).Contents (Elt Ideal))

/-- The first aggregation of the reference is the 64-column aggregation of the first product. -/
theorem v43_eq : val_main_v43 (F := Ideal) x0 x1 x2 = agg64 x1 (val_main_v30 (F := Ideal) x0 x2) := rfl

/-- The first head's aggregation is the 32-column aggregation of its projection. -/
theorem v61_eq : val_main_v61 (F := Ideal) x0 x1 x2 x3 x4 = agg32 x1 (val_main_v48 (F := Ideal) x0 x1 x2 x3 x4) := rfl

/-- The second head's aggregation is the 32-column aggregation of its projection (its edge data are the first head's). -/
theorem v78_eq : val_main_v78 (F := Ideal) x0 x1 x2 x3 x6 = agg32 x1 (val_main_v65 (F := Ideal) x0 x1 x2 x3 x6) := rfl

/-- The destination column is computed once and used by every aggregation. -/
theorem v60_eq_v42 : val_main_v60 (F := Ideal) x1 = val_main_v42 (F := Ideal) x1 := rfl
/-- The clamped source column likewise. -/
theorem v54_eq_v36 : val_main_v54 (F := Ideal) x1 = val_main_v36 (F := Ideal) x1 := rfl

/-- The reference's first product is the specification's: entry (n, j) = Σ_k x[n,k] · w[k,j]. -/
theorem v30_eq_mm : val_main_v30 (F := Ideal) x0 x2 = Cert.Gcn.mm x0 x2 := by
  funext i
  rw [val_main_v30_apply]
  unfold Cert.Gcn.mm
  refine Finset.sum_congr rfl fun k _ => ?_
  have hl : lidx_main_v30 i k = ix2 (row i) k := by
    funext a; match a with | ⟨0, _⟩ => rfl | ⟨1, _⟩ => rfl
  have hr : ridx_main_v30 i k = ix2 k (col i) := by
    funext a; match a with | ⟨0, _⟩ => rfl | ⟨1, _⟩ => rfl
  rw [hl, hr]

end

/-! ## The aggregation read at an index -/

/-- The destination row of edge `e`, read as a signed integer. -/
def dst (x1 : (⟨S2x800000, .i32⟩ : BufTy).Contents (Elt Ideal)) (e : Fin 850000) : Int :=
  (val_main_v42 (F := Ideal) x1 (ix2 e ⟨0, Nat.one_pos⟩)).toInt
/-- The source row of edge `e`, read as a signed integer and clamped into the node range. -/
def src (x1 : (⟨S2x800000, .i32⟩ : BufTy).Contents (Elt Ideal)) (e : Fin 850000) : Fin 50000 :=
  ⟨min (val_main_v36 (F := Ideal) x1 (ix2 e ⟨0, Nat.one_pos⟩)).toInt.toNat (50000 - 1), by omega⟩
/-- The weight of edge `e`. -/
def wgt (x1 : (⟨S2x800000, .i32⟩ : BufTy).Contents (Elt Ideal)) (e : Fin 850000) : EReal :=
  val_main_v29 (F := Ideal) x1 (ix1 e)

/-- The 64-column aggregation is the accumulating row scatter of the weighted gathered rows (the program's
    dimension-number records are the general row scatter's). -/
theorem agg64_fun (x1 : (⟨S2x800000, .i32⟩ : BufTy).Contents (Elt Ideal)) (h : FVec Ideal S50000x64 .f32) :
    agg64 x1 h = Ideal.hostScatterAdd (rowScatterDims 50000 850000 64 Gen.scatter_S50000x64_S850000x1_S850000x64_1_0_0_1_wf)
      (val_main_v41 (F := Ideal)) (val_main_v42 (F := Ideal) x1)
      (mulf (Host.gather gather_S50000x64_S850000x1_S850000x64_1_0_n_n_0_1_164 h (val_main_v36 (F := Ideal) x1)) (val_main_v39 (F := Ideal) x1)) := rfl

/-- The 32-column aggregation likewise, its destination and source columns being the 64-column one's. -/
theorem agg32_fun (x1 : (⟨S2x800000, .i32⟩ : BufTy).Contents (Elt Ideal)) (p : FVec Ideal S50000x32 .f32) :
    agg32 x1 p = Ideal.hostScatterAdd (rowScatterDims 50000 850000 32 Gen.scatter_S50000x32_S850000x1_S850000x32_1_0_0_1_wf)
      (val_main_v59 (F := Ideal)) (val_main_v42 (F := Ideal) x1)
      (mulf (Host.gather gather_S50000x32_S850000x1_S850000x32_1_0_n_n_0_1_132 p (val_main_v36 (F := Ideal) x1)) (val_main_v57 (F := Ideal) x1)) := rfl

/-- A gathered row of a 64-column array: the source node's row. -/
theorem gather64_apply (x1 : (⟨S2x800000, .i32⟩ : BufTy).Contents (Elt Ideal)) (h : FVec Ideal S50000x64 .f32)
    (e : Fin 850000) (q : Fin 64) :
    Host.gather gather_S50000x64_S850000x1_S850000x64_1_0_n_n_0_1_164 h (val_main_v36 (F := Ideal) x1) (ix2 e q)
      = h (ix2 (src x1 e) q) := by
  have hrec : gather_S50000x64_S850000x1_S850000x64_1_0_n_n_0_1_164
      = rowGatherDims 50000 850000 64 Gen.gather_S50000x64_S850000x1_S850000x64_1_0_n_n_0_1_164_wf := rfl
  rw [hrec]
  exact gather_rows_apply (by omega) Gen.gather_S50000x64_S850000x1_S850000x64_1_0_n_n_0_1_164_wf h
      (val_main_v36 (F := Ideal) x1) e q

/-- A gathered row of a 32-column array: the source node's row. -/
theorem gather32_apply (x1 : (⟨S2x800000, .i32⟩ : BufTy).Contents (Elt Ideal)) (p : FVec Ideal S50000x32 .f32)
    (e : Fin 850000) (q : Fin 32) :
    Host.gather gather_S50000x32_S850000x1_S850000x32_1_0_n_n_0_1_132 p (val_main_v36 (F := Ideal) x1) (ix2 e q)
      = p (ix2 (src x1 e) q) := by
  have hrec : gather_S50000x32_S850000x1_S850000x32_1_0_n_n_0_1_132
      = rowGatherDims 50000 850000 32 Gen.gather_S50000x32_S850000x1_S850000x32_1_0_n_n_0_1_132_wf := rfl
  rw [hrec]
  exact gather_rows_apply (by omega) Gen.gather_S50000x32_S850000x1_S850000x32_1_0_n_n_0_1_132_wf p
      (val_main_v36 (F := Ideal) x1) e q

/-- The edge weights broadcast along 64 columns. -/
theorem w64_apply (x1 : (⟨S2x800000, .i32⟩ : BufTy).Contents (Elt Ideal)) (e : Fin 850000) (q : Fin 64) :
    val_main_v39 (F := Ideal) x1 (ix2 e q) = wgt x1 e := by
  rw [val_main_v39_apply, val_main_v38_apply]
  unfold wgt
  refine congrArg (val_main_v29 (F := Ideal) x1) ?_
  funext a; match a with | ⟨0, _⟩ => rfl

/-- The edge weights broadcast along 32 columns. -/
theorem w32_apply (x1 : (⟨S2x800000, .i32⟩ : BufTy).Contents (Elt Ideal)) (e : Fin 850000) (q : Fin 32) :
    val_main_v57 (F := Ideal) x1 (ix2 e q) = wgt x1 e := by
  rw [val_main_v57_apply, val_main_v56_apply]
  unfold wgt
  refine congrArg (val_main_v29 (F := Ideal) x1) ?_
  funext a; match a with | ⟨0, _⟩ => rfl

/-- The scatter's zero operand on 64 columns. -/
theorem z64_apply (i : S50000x64.Idx) : val_main_v41 (F := Ideal) i = 0 := by
  rw [val_main_v41_apply, val_main_cst_8_apply, Ideal.ofBits_def, Ideal.ofBits_zero_f32]

/-- The scatter's zero operand on 32 columns. -/
theorem z32_apply (i : S50000x32.Idx) : val_main_v59 (F := Ideal) i = 0 := by
  rw [val_main_v59_apply, val_main_cst_11_apply, Ideal.ofBits_def, Ideal.ofBits_zero_f32]

/-- Entry (n, q) of the 64-column aggregation: the sum over the edges into node `n` of the source node's entry in
    column `q` times the edge weight. -/
theorem agg64_apply (x1 : (⟨S2x800000, .i32⟩ : BufTy).Contents (Elt Ideal)) (h : FVec Ideal S50000x64 .f32)
    (n : Fin 50000) (q : Fin 64) :
    agg64 x1 h (ix2 n q)
      = ∑ e : Fin 850000, if dst x1 e = (n.val : Int) then h (ix2 (src x1 e) q) * wgt x1 e else 0 := by
  refine ((congrFun (agg64_fun x1 h) (ix2 n q)).trans
    (scatterAdd_rows_apply (N := 50000) (E := 850000) (C := 64) Gen.scatter_S50000x64_S850000x1_S850000x64_1_0_0_1_wf
      (val_main_v41 (F := Ideal)) (val_main_v42 (F := Ideal) x1) _ n q)).trans ?_
  rw [z64_apply, zero_add]
  refine Finset.sum_congr rfl fun e _ => ?_
  refine if_congr Iff.rfl ?_ rfl
  rw [mulf_apply, gather64_apply, w64_apply]

/-- Entry (n, q) of the 32-column aggregation: the same sum over the same edges. -/
theorem agg32_apply (x1 : (⟨S2x800000, .i32⟩ : BufTy).Contents (Elt Ideal)) (p : FVec Ideal S50000x32 .f32)
    (n : Fin 50000) (q : Fin 32) :
    agg32 x1 p (ix2 n q)
      = ∑ e : Fin 850000, if dst x1 e = (n.val : Int) then p (ix2 (src x1 e) q) * wgt x1 e else 0 := by
  refine ((congrFun (agg32_fun x1 p) (ix2 n q)).trans
    (scatterAdd_rows_apply (N := 50000) (E := 850000) (C := 32) Gen.scatter_S50000x32_S850000x1_S850000x32_1_0_0_1_wf
      (val_main_v59 (F := Ideal)) (val_main_v42 (F := Ideal) x1) _ n q)).trans ?_
  rw [z32_apply, zero_add]
  refine Finset.sum_congr rfl fun e _ => ?_
  refine if_congr Iff.rfl ?_ rfl
  rw [mulf_apply, gather32_apply, w32_apply]

/-- The aggregation acts column by column: if column `ι q` of a 64-column array is column `q` of a 32-column one,
    the same holds of their aggregations. -/
theorem agg_col (x1 : (⟨S2x800000, .i32⟩ : BufTy).Contents (Elt Ideal)) (P : FVec Ideal S50000x64 .f32)
    (p : FVec Ideal S50000x32 .f32) (ι : Fin 32 → Fin 64)
    (h : ∀ (n : Fin 50000) (q : Fin 32), P (ix2 n (ι q)) = p (ix2 n q)) :
    ∀ (n : Fin 50000) (q : Fin 32), agg64 x1 P (ix2 n (ι q)) = agg32 x1 p (ix2 n q) := by
  intro n q
  rw [agg64_apply, agg32_apply]
  refine Finset.sum_congr rfl fun e _ => ?_
  rw [h]

/-! ## The two heads -/

/-- Column `q` of the left half of a 64-column array. -/
abbrev ιL (q : Fin 32) : Fin 64 := ⟨q.val, by omega⟩
/-- Column `q` of the right half of a 64-column array. -/
abbrev ιR (q : Fin 32) : Fin 64 := ⟨q.val + 32, by omega⟩

/-- Bias, rectifier and projection read at entry (n, j). -/
theorem reluProj_apply (a : (⟨2, ![50000, 64]⟩ : Shape).Idx → EReal) (b : (⟨1, ![64]⟩ : Shape).Idx → EReal)
    (w : (⟨2, ![64, 64]⟩ : Shape).Idx → EReal) (n : Fin 50000) (j : Fin 64) :
    Cert.Gcn.reluProj a b w (ix2 n j) = ∑ k : Fin 64, max (a (ix2 n k) + b (ix1 k)) 0 * w (ix2 k j) := rfl

/-- The left head read at entry (n, q). -/
theorem biasLeft_apply (a : (⟨2, ![50000, 64]⟩ : Shape).Idx → EReal) (b : (⟨1, ![32]⟩ : Shape).Idx → EReal)
    (n : Fin 50000) (q : Fin 32) : Cert.Gcn.biasLeft a b (ix2 n q) = a (ix2 n (ιL q)) + b (ix1 q) := rfl

/-- The right head read at entry (n, q). -/
theorem biasRight_apply (a : (⟨2, ![50000, 64]⟩ : Shape).Idx → EReal) (b : (⟨1, ![32]⟩ : Shape).Idx → EReal)
    (n : Fin 50000) (q : Fin 32) : Cert.Gcn.biasRight a b (ix2 n q) = a (ix2 n (ιR q)) + b (ix1 q) := rfl

section
variable (x0 : (⟨S50000x128, .f32⟩ : BufTy).Contents (Elt Ideal)) (x1 : (⟨S2x800000, .i32⟩ : BufTy).Contents (Elt Ideal))
  (x2 : (⟨S128x64, .f32⟩ : BufTy).Contents (Elt Ideal)) (x3 : (⟨S64, .f32⟩ : BufTy).Contents (Elt Ideal))
  (x4 x6 : (⟨S64x32, .f32⟩ : BufTy).Contents (Elt Ideal)) (x5 x7 : (⟨S32, .f32⟩ : BufTy).Contents (Elt Ideal))

/-- The hidden layer after bias and rectifier, entry (n, k): max (agg(x·w₁)[n,k] + b₁[k], 0). -/
theorem v47_apply (n : Fin 50000) (k : Fin 64) :
    val_main_v47 (F := Ideal) x0 x1 x2 x3 (ix2 n k)
      = max (agg64 x1 (Cert.Gcn.mm x0 x2) (ix2 n k) + x3 (ix1 k)) 0 := by
  have hb : idx_main_v44 (idx_main_v45 (ix2 n k : S50000x64.Idx)) = ix1 k := by
    funext a; match a with | ⟨0, _⟩ => rfl
  rw [val_main_v47_apply, Ideal.maximumf_def, val_main_v46_apply, Ideal.addf_def, v43_eq, v30_eq_mm,
    val_main_v45_apply, val_main_v44_apply, hb, val_main_call1_v0_apply, val_main_call1_cst_apply, Ideal.ofBits_def,
    Ideal.ofBits_zero_f32]

/-- The first head's bias broadcast over the nodes. -/
theorem v63_apply (n : Fin 50000) (q : Fin 32) : val_main_v63 (F := Ideal) x5 (ix2 n q) = x5 (ix1 q) := by
  have hb : idx_main_v62 (idx_main_v63 (ix2 n q : S50000x32.Idx)) = ix1 q := by
    funext a; match a with | ⟨0, _⟩ => rfl
  rw [val_main_v63_apply, val_main_v62_apply, hb]

/-- The second head's bias broadcast over the nodes. -/
theorem v80_apply (n : Fin 50000) (q : Fin 32) : val_main_v80 (F := Ideal) x7 (ix2 n q) = x7 (ix1 q) := by
  have hb : idx_main_v79 (idx_main_v80 (ix2 n q : S50000x32.Idx)) = ix1 q := by
    funext a; match a with | ⟨0, _⟩ => rfl
  rw [val_main_v80_apply, val_main_v79_apply, hb]

/-- The left half of the joined weight is the first head's weight. -/
theorem cat_left (hcat : Shape.Concatenates [S64x32, S64x32] (⟨2, ![64, 64]⟩ : Shape) 1) (k : Fin 64) (q : Fin 32) :
    concatenate (⟨2, ![64, 64]⟩ : Shape) 1 [⟨S64x32, x4⟩, ⟨S64x32, x6⟩] hcat (ix2 k (ιL q)) = x4 (ix2 k q) :=
  concatenate_pair_apply_left (1 : Fin 2) x4 x6 hcat (ix2 k (ιL q)) rfl (ix2 k q)
    (fun b => match b with | ⟨0, _⟩ => rfl | ⟨1, _⟩ => rfl)

/-- The right half of the joined weight is the second head's weight. -/
theorem cat_right (hcat : Shape.Concatenates [S64x32, S64x32] (⟨2, ![64, 64]⟩ : Shape) 1) (k : Fin 64) (q : Fin 32) :
    concatenate (⟨2, ![64, 64]⟩ : Shape) 1 [⟨S64x32, x4⟩, ⟨S64x32, x6⟩] hcat (ix2 k (ιR q)) = x6 (ix2 k q) :=
  concatenate_pair_apply_right (1 : Fin 2) x4 x6 hcat (ix2 k (ιR q)) rfl rfl (ix2 k q)
    (fun b => match b with | ⟨0, _⟩ => fun _ => rfl | ⟨1, _⟩ => fun hne => absurd rfl hne)
    rfl

/-- Column `q` of the left half of the projected hidden layer is the first head's product. -/
theorem reluProj_left (hcat : Shape.Concatenates [S64x32, S64x32] (⟨2, ![64, 64]⟩ : Shape) 1) (n : Fin 50000) (q : Fin 32) :
    Cert.Gcn.reluProj (agg64 x1 (Cert.Gcn.mm x0 x2)) x3
        (concatenate (⟨2, ![64, 64]⟩ : Shape) 1 [⟨S64x32, x4⟩, ⟨S64x32, x6⟩] hcat) (ix2 n (ιL q))
      = val_main_v48 (F := Ideal) x0 x1 x2 x3 x4 (ix2 n q) := by
  rw [reluProj_apply, val_main_v48_apply]
  refine Finset.sum_congr rfl fun k _ => ?_
  have hl : lidx_main_v48 (ix2 n q : S50000x32.Idx) k = ix2 n k := by
    funext a; match a with | ⟨0, _⟩ => rfl | ⟨1, _⟩ => rfl
  have hr : ridx_main_v48 (ix2 n q : S50000x32.Idx) k = ix2 k q := by
    funext a; match a with | ⟨0, _⟩ => rfl | ⟨1, _⟩ => rfl
  rw [hl, hr, v47_apply, cat_left]

/-- Column `q` of the right half of the projected hidden layer is the second head's product. -/
theorem reluProj_right (hcat : Shape.Concatenates [S64x32, S64x32] (⟨2, ![64, 64]⟩ : Shape) 1) (n : Fin 50000) (q : Fin 32) :
    Cert.Gcn.reluProj (agg64 x1 (Cert.Gcn.mm x0 x2)) x3
        (concatenate (⟨2, ![64, 64]⟩ : Shape) 1 [⟨S64x32, x4⟩, ⟨S64x32, x6⟩] hcat) (ix2 n (ιR q))
      = val_main_v65 (F := Ideal) x0 x1 x2 x3 x6 (ix2 n q) := by
  rw [reluProj_apply, val_main_v65_apply]
  refine Finset.sum_congr rfl fun k _ => ?_
  have hl : lidx_main_v65 (ix2 n q : S50000x32.Idx) k = ix2 n k := by
    funext a; match a with | ⟨0, _⟩ => rfl | ⟨1, _⟩ => rfl
  have hr : ridx_main_v65 (ix2 n q : S50000x32.Idx) k = ix2 k q := by
    funext a; match a with | ⟨0, _⟩ => rfl | ⟨1, _⟩ => rfl
  rw [hl, hr, v47_apply, cat_right]

/-- THE FIRST RESULT: the left head of the two-layer graph convolution is the reference's first value. -/
theorem left_eq (hcat : Shape.Concatenates [S64x32, S64x32] (⟨2, ![64, 64]⟩ : Shape) 1) :
    Cert.Gcn.biasLeft (agg64 x1 (Cert.Gcn.reluProj (agg64 x1 (Cert.Gcn.mm x0 x2)) x3
        (concatenate (⟨2, ![64, 64]⟩ : Shape) 1 [⟨S64x32, x4⟩, ⟨S64x32, x6⟩] hcat))) x5
      = val_main_v64 (F := Ideal) x0 x1 x2 x3 x4 x5 := by
  funext i
  obtain ⟨n, q, rfl⟩ : ∃ (n : Fin 50000) (q : Fin 32), i = ix2 n q := ⟨_, _, eq_ix2 i⟩
  have key := agg_col x1 (Cert.Gcn.reluProj (agg64 x1 (Cert.Gcn.mm x0 x2)) x3
      (concatenate (⟨2, ![64, 64]⟩ : Shape) 1 [⟨S64x32, x4⟩, ⟨S64x32, x6⟩] hcat))
    (val_main_v48 (F := Ideal) x0 x1 x2 x3 x4) ιL (reluProj_left x0 x1 x2 x3 x4 x6 hcat) n q
  rw [biasLeft_apply, key, val_main_v64_apply, Ideal.addf_def, v61_eq, v63_apply]

/-- THE SECOND RESULT: the right head is the reference's second value. -/
theorem right_eq (hcat : Shape.Concatenates [S64x32, S64x32] (⟨2, ![64, 64]⟩ : Shape) 1) :
    Cert.Gcn.biasRight (agg64 x1 (Cert.Gcn.reluProj (agg64 x1 (Cert.Gcn.mm x0 x2)) x3
        (concatenate (⟨2, ![64, 64]⟩ : Shape) 1 [⟨S64x32, x4⟩, ⟨S64x32, x6⟩] hcat))) x7
      = val_main_v81 (F := Ideal) x0 x1 x2 x3 x6 x7 := by
  funext i
  obtain ⟨n, q, rfl⟩ : ∃ (n : Fin 50000) (q : Fin 32), i = ix2 n q := ⟨_, _, eq_ix2 i⟩
  have key := agg_col x1 (Cert.Gcn.reluProj (agg64 x1 (Cert.Gcn.mm x0 x2)) x3
      (concatenate (⟨2, ![64, 64]⟩ : Shape) 1 [⟨S64x32, x4⟩, ⟨S64x32, x6⟩] hcat))
    (val_main_v65 (F := Ideal) x0 x1 x2 x3 x6) ιR (reluProj_right x0 x1 x2 x3 x4 x6 hcat) n q
  rw [biasRight_apply, key, val_main_v81_apply, Ideal.addf_def, v78_eq, v80_apply]

end

end Cert.Gcn.Bridge

end
-- ==== Proof.lean ====
/-
  The claim: a two-layer graph convolution with two output heads, computed by three tiled kernels (feature product;
  bias, rectifier and the product with the two head weights joined by columns; split and bias) around two neighbour
  aggregations over 64 columns, equals on the extended reals the reference that aggregates each 32-column head on its
  own.  The mathematics: the aggregation (gather source rows, scale by the edge weight, scatter-add onto destination
  rows) acts on every column independently, and the product with a weight matrix joined by columns is, column block
  by column block, the product with each piece.  No finiteness is needed: only sums and products are re-grouped by
  index, never distributed.
  The three frames are the programs' runs; the idealization rewrote nothing, so the preservation claim is trivial.
-/
import proofs.«163162_j3032246911086_1_alg».proof.Defs
import proofs.«163162_j3032246911086_1_alg».proof.Proof.Gen.Kernel
import proofs.«163162_j3032246911086_1_alg».proof.Proof.Gen.Kernel.Skeleton
import proofs.«163162_j3032246911086_1_alg».proof.Proof.Gen.Kernel.Launch
import proofs.«163162_j3032246911086_1_alg».proof.Proof.Gen.Kernel.Points
import proofs.«163162_j3032246911086_1_alg».proof.Proof.Gen.Kernel.Frame
import proofs.«163162_j3032246911086_1_alg».proof.Proof.Gen.KernelIdeal
import proofs.«163162_j3032246911086_1_alg».proof.Proof.Gen.KernelIdeal.Skeleton
import proofs.«163162_j3032246911086_1_alg».proof.Proof.Gen.KernelIdeal.Launch
import proofs.«163162_j3032246911086_1_alg».proof.Proof.Gen.KernelIdeal.Points
import proofs.«163162_j3032246911086_1_alg».proof.Proof.Gen.KernelIdeal.Frame
import proofs.«163162_j3032246911086_1_alg».proof.Proof.Gen.ReferenceIdeal
import proofs.«163162_j3032246911086_1_alg».proof.Proof.Gen.Pre_finite_inputs
import proofs.«163162_j3032246911086_1_alg».proof.Proof.RefRun
import proofs.«163162_j3032246911086_1_alg».proof.Proof.RefRead
import proofs.«163162_j3032246911086_1_alg».proof.Proof.KernelRun
import proofs.«163162_j3032246911086_1_alg».proof.Proof.KernelValue
import proofs.«163162_j3032246911086_1_alg».proof.Proof.Bridge
import Idealize.ShloMosaic.Adequacy
import Idealize.ShloMosaic.Init

noncomputable section

namespace Cert.Proof

open Idealize.ShloMosaic Idealize.SL.Sem

/-- The kernel side's value before the last region is the reference-side aggregation of the rectified projection of
    the aggregated feature product: the same operations, spelt with either program's dimension records. -/
theorem hidden_eq (x0 : (⟨Cert.KernelIdeal.S50000x128, .f32⟩ : BufTy).Contents (Elt Ideal))
    (x1 : (⟨Cert.KernelIdeal.S2x800000, .i32⟩ : BufTy).Contents (Elt Ideal))
    (x2 : (⟨Cert.KernelIdeal.S128x64, .f32⟩ : BufTy).Contents (Elt Ideal)) (x3 : (⟨Cert.KernelIdeal.S64, .f32⟩ : BufTy).Contents (Elt Ideal))
    (x4 x6 : (⟨Cert.KernelIdeal.S64x32, .f32⟩ : BufTy).Contents (Elt Ideal)) :
    Cert.KernelIdeal.Result.hidden x0 x1 x2 x3 x4 x6
      = Cert.Gcn.Bridge.agg64 x1 (Cert.Gcn.reluProj (Cert.Gcn.Bridge.agg64 x1 (Cert.Gcn.mm x0 x2)) x3
          (concatenate Cert.KernelIdeal.S64x64 1 [⟨Cert.KernelIdeal.S64x32, x4⟩, ⟨Cert.KernelIdeal.S64x32, x6⟩]
            Cert.KernelIdeal.Facts₀.concatenates_S64x32_S64x32_S64x64_d1)) := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with the two heads at the same functions of the arguments. -/
theorem algebraic : Cert.algebraic_KernelIdeal_ReferenceIdeal := by
  intro m ρ m' ρ' _ hagree
  refine ⟨fun c => Cert.Gcn.biasLeft
      (Cert.KernelIdeal.Result.hidden (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg5)),
    fun c => Cert.Gcn.biasRight
      (Cert.KernelIdeal.Result.hidden (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Hand.run_results (F := Ideal) m ρ)
    obtain ⟨h0, h1, hargs⟩ := h c
    exact ⟨h0.trans (Cert.KernelIdeal.Result.out_left m ρ c), h1.trans (Cert.KernelIdeal.Result.out_right m ρ c), hargs⟩
  · refine (θ_run Cert.ReferenceIdeal.defs _ _).mono (fun r h c => ?_) (Cert.ReferenceIdeal.ValueP.run (F := Ideal) m' ρ')
    obtain ⟨h0, h1, hargs⟩ := h c
    obtain ⟨a0, a1, a2, a3, a4, a5, a6, a7⟩ := hagree c
    refine ⟨h0.trans ?_, h1.trans ?_, hargs⟩
    · beta_reduce
      rw [Cert.ReferenceIdeal.ReadP.val_main_v64_eq, a0, a1, a2, a3, a4, a5, hidden_eq]
      exact (Cert.Gcn.Bridge.left_eq _ _ _ _ _ _ _ _).symm
    · beta_reduce
      rw [Cert.ReferenceIdeal.ReadP.val_main_v81_eq, a0, a1, a2, a3, a6, a7, hidden_eq]
      exact (Cert.Gcn.Bridge.right_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
